-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S102400x133 : Shape := ⟨2, ![102400, 133]⟩
abbrev S204800x147 : Shape := ⟨2, ![204800, 147]⟩
abbrev S147x256 : Shape := ⟨2, ![147, 256]⟩
abbrev S256x256 : Shape := ⟨2, ![256, 256]⟩
abbrev S389x256 : Shape := ⟨2, ![389, 256]⟩
abbrev S256 : Shape := ⟨1, ![256]⟩
abbrev S102400x6 : Shape := ⟨2, ![102400, 6]⟩
abbrev S204800 : Shape := ⟨1, ![204800]⟩
abbrev S102400 : Shape := ⟨1, ![102400]⟩
abbrev S_ : Shape := ⟨0, ![]⟩

class Facts : Prop where
  bcast_S_S102400x133 : S_.BroadcastsInDim S102400x133 (![] : Fin 0 → Fin S102400x133.rank)
  reducesTo_S102400x133_S_d0_1 : S102400x133.ReducesTo [0, 1] S_
  h_S_ : 0 < S_.numel
  bcast_S_S204800x147 : S_.BroadcastsInDim S204800x147 (![] : Fin 0 → Fin S204800x147.rank)
  reducesTo_S204800x147_S_d0_1 : S204800x147.ReducesTo [0, 1] S_
  bcast_S_S147x256 : S_.BroadcastsInDim S147x256 (![] : Fin 0 → Fin S147x256.rank)
  reducesTo_S147x256_S_d0_1 : S147x256.ReducesTo [0, 1] S_
  bcast_S_S256x256 : S_.BroadcastsInDim S256x256 (![] : Fin 0 → Fin S256x256.rank)
  reducesTo_S256x256_S_d0_1 : S256x256.ReducesTo [0, 1] S_
  bcast_S_S389x256 : S_.BroadcastsInDim S389x256 (![] : Fin 0 → Fin S389x256.rank)
  reducesTo_S389x256_S_d0_1 : S389x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S389x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S389x256 .f32 := Host.absf main_arg5
  let main_cst_8 : FVec F S_ .f32 := constant S_ .f32 0x7F800000#32
  let main_v25 : FVec F S389x256 .f32 := broadcastInDim S389x256 ![] bcast_S_S389x256 main_cst_8
  let main_v26 : IVec S389x256 1 := cmpf .olt main_v24 main_v25
  let main_c_9 : IVec S_ 1 := constantI S_ 1 1#1
  let main_v27 : IVec S_ 1 := (fun x v => Host.reduce IntOp.andi x v reducesTo_S389x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S102400x133 .f32) (main_arg1 : FVec F S204800x147 .f32) (main_arg2 : FVec F S147x256 .f32) (main_arg3 : FVec F S256x256 .f32) (main_arg4 : FVec F S256x256 .f32) (main_arg5 : FVec F S389x256 .f32) (main_arg6 : FVec F S256 .f32) (main_arg7 : IVec S102400x6 32) (main_arg8 : IVec S204800 32) (main_arg9 : IVec S204800 32) (main_arg10 : IVec S102400 32) : IVec S_ 1 :=
  let main_v0 : FVec F S102400x133 .f32 := Host.absf main_arg0
  let main_cst : FVec F S_ .f32 := constant S_ .f32 0x7F800000#32
  let main_v1 : FVec F S102400x133 .f32 := broadcastInDim S102400x133 ![] bcast_S_S102400x133 main_cst
  let main_v2 : IVec S102400x133 1 := cmpf .olt main_v0 main_v1
  let main_c : IVec S_ 1 := constantI S_ 1 1#1
  let main_v3 : IVec S_ 1 := (fun x v => Host.reduce IntOp.andi x v reducesTo_S102400x133_S_d0_1 h_S_) main_v2 main_c
  let main_v4 : FVec F S204800x147 .f32 := Host.absf main_arg1
  let main_cst_0 : FVec F S_ .f32 := constant S_ .f32 0x7F800000#32
  let main_v5 : FVec F S204800x147 .f32 := broadcastInDim S204800x147 ![] bcast_S_S204800x147 main_cst_0
  let main_v6 : IVec S204800x147 1 := cmpf .olt main_v4 main_v5
  let main_c_1 : IVec S_ 1 := constantI S_ 1 1#1
  let main_v7 : IVec S_ 1 := (fun x v => Host.reduce IntOp.andi x v reducesTo_S204800x147_S_d0_1 h_S_) main_v6 main_c_1
  let main_v8 : IVec S_ 1 := andi main_v3 main_v7
  let main_v9 : FVec F S147x256 .f32 := Host.absf main_arg2
  let main_cst_2 : FVec F S_ .f32 := constant S_ .f32 0x7F800000#32
  let main_v10 : FVec F S147x256 .f32 := broadcastInDim S147x256 ![] bcast_S_S147x256 main_cst_2
  let main_v11 : IVec S147x256 1 := cmpf .olt main_v9 main_v10
  let main_c_3 : IVec S_ 1 := constantI S_ 1 1#1
  let main_v12 : IVec S_ 1 := (fun x v => Host.reduce IntOp.andi x v reducesTo_S147x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S102400x133 : Shape := ⟨2, ![102400, 133]⟩
abbrev S204800x147 : Shape := ⟨2, ![204800, 147]⟩
abbrev S147x256 : Shape := ⟨2, ![147, 256]⟩
abbrev S256x256 : Shape := ⟨2, ![256, 256]⟩
abbrev S389x256 : Shape := ⟨2, ![389, 256]⟩
abbrev S256 : Shape := ⟨1, ![256]⟩
abbrev S102400x6 : Shape := ⟨2, ![102400, 6]⟩
abbrev S204800 : Shape := ⟨1, ![204800]⟩
abbrev S102400 : Shape := ⟨1, ![102400]⟩
abbrev S133x256 : Shape := ⟨2, ![133, 256]⟩
abbrev S1x256 : Shape := ⟨2, ![1, 256]⟩
abbrev S204800x256 : Shape := ⟨2, ![204800, 256]⟩
abbrev S4096x147 : Shape := ⟨2, ![4096, 147]⟩
abbrev S4096x256 : Shape := ⟨2, ![4096, 256]⟩
abbrev S_ : Shape := ⟨0, ![]⟩
abbrev S102400x6x1 : Shape := ⟨3, ![102400, 6, 1]⟩
abbrev S102400x6x256 : Shape := ⟨3, ![102400, 6, 256]⟩
abbrev S102400x256 : Shape := ⟨2, ![102400, 256]⟩
abbrev S204800x1 : Shape := ⟨2, ![204800, 1]⟩
abbrev S2048x133 : Shape := ⟨2, ![2048, 133]⟩
abbrev S2048x256 : Shape := ⟨2, ![2048, 256]⟩
abbrev S102400x1 : Shape := ⟨2, ![102400, 1]⟩
abbrev S4096 : Shape := ⟨1, ![4096]⟩
abbrev S4096x1 : Shape := ⟨2, ![4096, 1]⟩

abbrev nBuf : Space → Nat
  | .hbm => 119
  | .vmem => 30
  | .smem => 0
  | _ => 0

abbrev bufTy : (tb : Table) → Fin (tcTables nBuf tb) → BufTy
  | .hbm, ⟨0, _⟩ => ⟨S102400x133, .f32⟩
  | .hbm, ⟨1, _⟩ => ⟨S204800x147, .f32⟩
  | .hbm, ⟨2, _⟩ => ⟨S147x256, .f32⟩
  | .hbm, ⟨3, _⟩ => ⟨S256x256, .f32⟩
  | .hbm, ⟨4, _⟩ => ⟨S256x256, .f32⟩
  | .hbm, ⟨5, _⟩ => ⟨S389x256, .f32⟩
  | .hbm, ⟨6, _⟩ => ⟨S256, .f32⟩
  | .hbm, ⟨7, _⟩ => ⟨S102400x6, .i32⟩
  | .hbm, ⟨8, _⟩ => ⟨S204800, .i32⟩
  | .hbm, ⟨9, _⟩ => ⟨S204800, .i32⟩
  | .hbm, ⟨10, _⟩ => ⟨S102400, .i32⟩
  | .hbm, ⟨11, _⟩ => ⟨S147x256, .bf16⟩
  | .hbm, ⟨12, _⟩ => ⟨S256x256, .bf16⟩
  | .hbm, ⟨13, _⟩ => ⟨S256x256, .bf16⟩
  | .hbm, ⟨14, _⟩ => ⟨S133x256, .f32⟩
  | .hbm, ⟨15, _⟩ => ⟨S133x256, .bf16⟩
  | .hbm, ⟨16, _⟩ => ⟨S256x256, .f32⟩
  | .hbm, ⟨17, _⟩ => ⟨S256x256, .bf16⟩
  | .hbm, ⟨18, _⟩ => ⟨S1x256, .f32⟩
  | .hbm, ⟨19, _⟩ => ⟨S204800x256, .f32⟩
  | .hbm, ⟨20, _⟩ => ⟨S204800x256, .bf16⟩
  | .hbm, ⟨21, _⟩ => ⟨S_, .i32⟩
  | .hbm, ⟨22, _⟩ => ⟨S102400x6, .i32⟩
  | .hbm, ⟨23, _⟩ => ⟨S102400x6, .i1⟩
  | .hbm, ⟨24, _⟩ => ⟨S_, .i32⟩
  | .hbm, ⟨25, _⟩ => ⟨S102400x6, .i32⟩
  | .hbm, ⟨26, _⟩ => ⟨S102400x6, .i32⟩
  | .hbm, ⟨27, _⟩ => ⟨S102400x6, .i32⟩
  | .hbm, ⟨28, _⟩ => ⟨S102400x6x1, .i32⟩
  | .hbm, ⟨29, _⟩ => ⟨S102400x6x256, .bf16⟩
  | .hbm, ⟨30, _⟩ => ⟨S102400x6x256, .f32⟩
  | .hbm, ⟨31, _⟩ => ⟨S_, .f32⟩
  | .hbm, ⟨32, _⟩ => ⟨S102400x256, .f32⟩
  | .hbm, ⟨33, _⟩ => ⟨S_, .i32⟩
  | .hbm, ⟨34, _⟩ => ⟨S204800, .i32⟩
  | .hbm, ⟨35, _⟩ => ⟨S204800, .i1⟩
  | .hbm, ⟨36, _⟩ => ⟨S_, .i32⟩
  | .hbm, ⟨37, _⟩ => ⟨S204800, .i32⟩
  | .hbm, ⟨38, _⟩ => ⟨S204800, .i32⟩
  | .hbm, ⟨39, _⟩ => ⟨S204800, .i32⟩
  | .hbm, ⟨40, _⟩ => ⟨S204800x1, .i32⟩
  | .hbm, ⟨41, _⟩ => ⟨S204800x256, .f32⟩
  | .hbm, ⟨42, _⟩ => ⟨S_, .i32⟩
  | .hbm, ⟨43, _⟩ => ⟨S204800, .i32⟩
  | .hbm, ⟨44, _⟩ => ⟨S204800, .i1⟩
  | .hbm, ⟨45, _⟩ => ⟨S_, .i32⟩
  | .hbm, ⟨46, _⟩ => ⟨S204800, .i32⟩
  | .hbm, ⟨47, _⟩ => ⟨S204800, .i32⟩
  | .hbm, ⟨48, _⟩ => ⟨S204800, .i32⟩
  | .hbm, ⟨49, _⟩ => ⟨S204800x1, .i32⟩
  | .hbm, ⟨50, _⟩ => ⟨S204800x256, .bf16⟩
  | .hbm, ⟨51, _⟩ => ⟨S204800x256, .f32⟩
  | .hbm, ⟨52, _⟩ => ⟨S204800x256, .f32⟩
  | .hbm, ⟨53, _⟩ => ⟨S204800x256, .bf16⟩
  | .hbm, ⟨54, _⟩ => ⟨S204800x256, .bf16⟩
  | .hbm, ⟨55, _⟩ => ⟨S_, .i32⟩
  | .hbm, ⟨56, _⟩ => ⟨S102400x6, .i32⟩
  | .hbm, ⟨57, _⟩ => ⟨S102400x6, .i1⟩
  | .hbm, ⟨58, _⟩ => ⟨S_, .i32⟩
  | .hbm, ⟨59, _⟩ => ⟨S102400x6, .i32⟩
  | .hbm, ⟨60, _⟩ => ⟨S102400x6, .i32⟩
  | .hbm, ⟨61, _⟩ => ⟨S102400x6, .i32⟩
  | .hbm, ⟨62, _⟩ => ⟨S102400x6x1, .i32⟩
  | .hbm, ⟨63, _⟩ => ⟨S102400x6x256, .bf16⟩
  | .hbm, ⟨64, _⟩ => ⟨S102400x6x256, .f32⟩
  | .hbm, ⟨65, _⟩ => ⟨S_, .f32⟩
  | .hbm, ⟨66, _⟩ => ⟨S102400x256, .f32⟩
  | .hbm, ⟨67, _⟩ => ⟨S_, .i32⟩
  | .hbm, ⟨68, _⟩ => ⟨S204800, .i32⟩
  | .hbm, ⟨69, _⟩ => ⟨S204800, .i1⟩
  | .hbm, ⟨70, _⟩ => ⟨S_, .i32⟩
  | .hbm, ⟨71, _⟩ => ⟨S204800, .i32⟩
  | .hbm, ⟨72, _⟩ => ⟨S204800, .i32⟩
  | .hbm, ⟨73, _⟩ => ⟨S204800, .i32⟩
  | .hbm, ⟨74, _⟩ => ⟨S204800x1, .i32⟩
  | .hbm, ⟨75, _⟩ => ⟨S204800x256, .f32⟩
  | .hbm, ⟨76, _⟩ => ⟨S_, .i32⟩
  | .hbm, ⟨77, _⟩ => ⟨S204800, .i32⟩
  | .hbm, ⟨78, _⟩ => ⟨S204800, .i1⟩
  | .hbm, ⟨79, _⟩ => ⟨S_, .i32⟩
  | .hbm, ⟨80, _⟩ => ⟨S204800, .i32⟩
  | .hbm, ⟨81, _⟩ => ⟨S204800, .i32⟩
  | .hbm, ⟨82, _⟩ => ⟨S204800, .i32⟩
  | .hbm, ⟨83, _⟩ => ⟨S204800x1, .i32⟩
  | .hbm, ⟨84, _⟩ => ⟨S204800x256, .bf16⟩
  | .hbm, ⟨85, _⟩ => ⟨S204800x256, .f32⟩
  | .hbm, ⟨86, _⟩ => ⟨S204800x256, .f32⟩
  | .hbm, ⟨87, _⟩ => ⟨S204800x256, .bf16⟩
  | .hbm, ⟨88, _⟩ => ⟨S204800x256, .bf16⟩
  | .hbm, ⟨89, _⟩ => ⟨S_, .i32⟩
  | .hbm, ⟨90, _⟩ => ⟨S102400x6, .i32⟩
  | .hbm, ⟨91, _⟩ => ⟨S102400x6, .i1⟩
  | .hbm, ⟨92, _⟩ => ⟨S_, .i32⟩
  | .hbm, ⟨93, _⟩ => ⟨S102400x6, .i32⟩
  | .hbm, ⟨94, _⟩ => ⟨S102400x6, .i32⟩
  | .hbm, ⟨95, _⟩ => ⟨S102400x6, .i32⟩
  | .hbm, ⟨96, _⟩ => ⟨S102400x6x1, .i32⟩
  | .hbm, ⟨97, _⟩ => ⟨S102400x6x256, .bf16⟩
  | .hbm, ⟨98, _⟩ => ⟨S102400x6x256, .f32⟩
  | .hbm, ⟨99, _⟩ => ⟨S_, .f32⟩
  | .hbm, ⟨100, _⟩ => ⟨S102400x256, .f32⟩
  | .hbm, ⟨101, _⟩ => ⟨S102400x256, .bf16⟩
  | .hbm, ⟨102, _⟩ => ⟨S102400x256, .f32⟩
  | .hbm, ⟨103, _⟩ => ⟨S_, .f32⟩
  | .hbm, ⟨104, _⟩ => ⟨S4096x256, .f32⟩
  | .hbm, ⟨105, _⟩ => ⟨S102400x1, .i32⟩
  | .hbm, ⟨106, _⟩ => ⟨S4096x256, .f32⟩
  | .hbm, ⟨107, _⟩ => ⟨S_, .f32⟩
  | .hbm, ⟨108, _⟩ => ⟨S102400, .f32⟩
  | .hbm, ⟨109, _⟩ => ⟨S_, .f32⟩
  | .hbm, ⟨110, _⟩ => ⟨S4096, .f32⟩
  | .hbm, ⟨111, _⟩ => ⟨S102400x1, .i32⟩
  | .hbm, ⟨112, _⟩ => ⟨S4096, .f32⟩
  | .hbm, ⟨113, _⟩ => ⟨S_, .f32⟩
  | .hbm, ⟨114, _⟩ => ⟨S4096, .f32⟩
  | .hbm, ⟨115, _⟩ => ⟨S4096, .f32⟩
  | .hbm, ⟨116, _⟩ => ⟨S4096x1, .f32⟩
  | .hbm, ⟨117, _⟩ => ⟨S4096x256, .f32⟩
  | .hbm, ⟨118, _⟩ => ⟨S4096x256, .f32⟩
  | .local _ .vmem, ⟨0, _⟩ => ⟨S4096x147, .f32⟩
  | .local _ .vmem, ⟨1, _⟩ => ⟨S4096x147, .f32⟩
  | .local _ .vmem, ⟨2, _⟩ => ⟨S147x256, .bf16⟩
  | .local _ .vmem, ⟨3, _⟩ => ⟨S4096x256, .f32⟩
  | .local _ .vmem, ⟨4, _⟩ => ⟨S4096x256, .f32⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S256x256, .bf16⟩
  | .local _ .vmem, ⟨10, _⟩ => ⟨S4096x256, .f32⟩
  | .local _ .vmem, ⟨11, _⟩ => ⟨S4096x256, .f32⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S256x256, .bf16⟩
  | .local _ .vmem, ⟨17, _⟩ => ⟨S4096x256, .f32⟩
  | .local _ .vmem, ⟨18, _⟩ => ⟨S4096x256, .f32⟩
  | .local _ .vmem, ⟨19, _⟩ => ⟨S4096x256, .bf16⟩
  | .local _ .vmem, ⟨20, _⟩ => ⟨S4096x256, .bf16⟩
  | .local _ .vmem, ⟨21, _⟩ => ⟨S2048x133, .f32⟩
  | .local _ .vmem, ⟨22, _⟩ => ⟨S2048x133, .f32⟩
  | .local _ .vmem, ⟨23, _⟩ => ⟨S133x256, .bf16⟩
  | .local _ .vmem, ⟨24, _⟩ => ⟨S2048x256, .bf16⟩
  | .local _ .vmem, ⟨25, _⟩ => ⟨S2048x256, .bf16⟩
  | .local _ .vmem, ⟨26, _⟩ => ⟨S256x256, .bf16⟩
  | .local _ .vmem, ⟨27, _⟩ => ⟨S1x256, .f32⟩
  | .local _ .vmem, ⟨28, _⟩ => ⟨S2048x256, .f32⟩
  | .local _ .vmem, ⟨29, _⟩ => ⟨S2048x256, .f32⟩
  | _, _ => ⟨S102400x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_c_1 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_3 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_c_8 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_16 : Ref sig .tc := ⟨.hbm, 107, rfl⟩
abbrev main_v77 : Ref sig .tc := ⟨.hbm, 108, rfl⟩
abbrev main_cst_17 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x147 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S147x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4096x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4096x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x133 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S133x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2048x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2048x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bitsLt_bf16_f32 : FTy.bits .bf16 < FTy.bits .f32
  slices_S389x256_S133x256_0_0 : S389x256.Slices ![0, 0] S133x256
  slices_S389x256_S256x256_133_0 : S389x256.Slices ![133, 0] S256x256
  shapeCasts_S256_S1x256 : S256.ShapeCasts S1x256
  inb_S4096x147_S4096x147_0_0 : ∀ a, (![0, 0] : Fin 2 → Nat) a + S4096x147.size a ≤ S4096x147.size a
  h_S4096x147 : 0 < S4096x147.numel
  inb_S147x256_S147x256_0_0 : ∀ a, (![0, 0] : Fin 2 → Nat) a + S147x256.size a ≤ S147x256.size a
  h_S147x256 : 0 < S147x256.numel
  shapeCasts_S147x256_S147x256 : S147x256.ShapeCasts S147x256
  inb_S4096x256_S4096x256_0_0 : ∀ a, (![0, 0] : Fin 2 → Nat) a + S4096x256.size a ≤ S4096x256.size a
  h_S4096x256 : 0 < S4096x256.numel
  packedbf16_S4096x256_S4096x256_0_0 : (Rect.unit (s := S4096x256) ![0, 0] S4096x256.size inb_S4096x256_S4096x256_0_0).PackedRows (EltTy.packing .bf16)
  bcast_S_S102400x6 : S_.BroadcastsInDim S102400x6 (![] : Fin 0 → Fin S102400x6.rank)
  bcast_S102400x6_S102400x6x1_0_1 : S102400x6.BroadcastsInDim S102400x6x1 (![0, 1] : Fin 2 → Fin S102400x6x1.rank)
  reducesTo_S102400x6x256_S102400x256_d1 : S102400x6x256.ReducesTo [1] S102400x256
  h_S_ : 0 < S_.numel
  bcast_S_S204800 : S_.BroadcastsInDim S204800 (![] : Fin 0 → Fin S204800.rank)
  bcast_S204800_S204800x1_0 : S204800.BroadcastsInDim S204800x1 (![0] : Fin 1 → Fin S204800x1.rank)
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2048x133_S2048x133_0_0 : ∀ a, (![0, 0] : Fin 2 → Nat) a + S2048x133.size a ≤ S2048x133.size a
  h_S2048x133 : 0 < S2048x133.numel
  inb_S133x256_S133x256_0_0 : ∀ a, (![0, 0] : Fin 2 → Nat) a + S133x256.size a ≤ S133x256.size a
  h_S133x256 : 0 < S133x256.numel
  shapeCasts_S133x256_S133x256 : S133x256.ShapeCasts S133x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  bcast_S_S4096x256 : S_.BroadcastsInDim S4096x256 (![] : Fin 0 → Fin S4096x256.rank)
  bcast_S102400_S102400x1_0 : S102400.BroadcastsInDim S102400x1 (![0] : Fin 1 → Fin S102400x1.rank)
  bcast_S_S102400 : S_.BroadcastsInDim S102400 (![] : Fin 0 → Fin S102400.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  dot_S4096x147_S147x256_S4096x256_1_0_0_1_n_n_wf : DotDims.WF S4096x147 S147x256 S4096x256 [1] [0] [0] [1] [] []
  gather_S204800x256_S102400x6x1_S102400x6x256_2_0_n_n_0_2_1256_wf : GatherDims.WF S204800x256 S102400x6x1 S102400x6x256 [2] [0] [] [0] [] 2 ![1, 256]
  gather_S102400x256_S204800x1_S204800x256_1_0_n_n_0_1_1256_wf : GatherDims.WF S102400x256 S204800x1 S204800x256 [1] [0] [] [0] [] 1 ![1, 256]
  gather_S204800x256_S204800x1_S204800x256_1_0_n_n_0_1_1256_wf : GatherDims.WF S204800x256 S204800x1 S204800x256 [1] [0] [] [0] [] 1 ![1, 256]
  dot_S4096x256_S256x256_S4096x256_1_0_0_1_n_n_wf : DotDims.WF S4096x256 S256x256 S4096x256 [1] [0] [0] [1] [] []
  dot_S2048x133_S133x256_S2048x256_1_0_0_1_n_n_wf : DotDims.WF S2048x133 S133x256 S2048x256 [1] [0] [0] [1] [] []
  dot_S2048x256_S256x256_S2048x256_1_0_0_1_n_n_wf : DotDims.WF S2048x256 S256x256 S2048x256 [1] [0] [0] [1] [] []
  scatter_S4096x256_S102400x1_S102400x256_1_0_0_1_wf : ScatterDims.WF S4096x256 S102400x1 S102400x256 [1] [0] [0] 1
  scatter_S4096_S102400x1_S102400_n_0_0_1_wf : ScatterDims.WF S4096 S102400x1 S102400 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x147.size a ≤ S204800x147.size a
  hwx0_0 : ∀ i : grid0.Coords, EltTy.bits .f32 = 32 ∨ (Rect.block (s := S204800x147) S4096x147.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S147x256.size a ≤ S147x256.size a
  hwx0_1 : ∀ i : grid0.Coords, EltTy.bits .bf16 = 32 ∨ (Rect.block (s := S147x256) S147x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S204800x256.size a
  hwx0_2 : ∀ i : grid0.Coords, EltTy.bits .f32 = 32 ∨ (Rect.block (s := S204800x256) S4096x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S204800x256.size a
  hwx0_3 : ∀ i : grid0.Coords, EltTy.bits .bf16 = 32 ∨ (Rect.block (s := S204800x256) S4096x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S204800x256.size a
  hwx1_0 : ∀ i : grid1.Coords, EltTy.bits .bf16 = 32 ∨ (Rect.block (s := S204800x256) S4096x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x256.size a ≤ S204800x256.size a
  hwx1_2 : ∀ i : grid1.Coords, EltTy.bits .f32 = 32 ∨ (Rect.block (s := S204800x256) S4096x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S204800x256.size a
  hwx1_3 : ∀ i : grid1.Coords, EltTy.bits .bf16 = 32 ∨ (Rect.block (s := S204800x256) S4096x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S204800x256.size a
  hwx2_0 : ∀ i : grid2.Coords, EltTy.bits .bf16 = 32 ∨ (Rect.block (s := S204800x256) S4096x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x256.size a ≤ S204800x256.size a
  hwx2_2 : ∀ i : grid2.Coords, EltTy.bits .f32 = 32 ∨ (Rect.block (s := S204800x256) S4096x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x256.size a ≤ S204800x256.size a
  hwx2_3 : ∀ i : grid2.Coords, EltTy.bits .bf16 = 32 ∨ (Rect.block (s := S204800x256) S4096x256.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x133.size a ≤ S102400x133.size a
  hwx3_0 : ∀ i : grid3.Coords, EltTy.bits .f32 = 32 ∨ (Rect.block (s := S102400x133) S2048x133.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S133x256.size a ≤ S133x256.size a
  hwx3_1 : ∀ i : grid3.Coords, EltTy.bits .bf16 = 32 ∨ (Rect.block (s := S133x256) S133x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x256.size a ≤ S102400x256.size a
  hwx3_2 : ∀ i : grid3.Coords, EltTy.bits .bf16 = 32 ∨ (Rect.block (s := S102400x256) S2048x256.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .bf16 = 32 ∨ (Rect.block (s := S256x256) S256x256.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2048x256.size a ≤ S102400x256.size a
  hwx3_5 : ∀ i : grid3.Coords, EltTy.bits .f32 = 32 ∨ (Rect.block (s := S102400x256) S2048x256.size (cc3_transform_5 i) (hinb3_5 i)).WholeWords (EltTy.packing .f32)

variable [Facts₀]

def dot_S4096x147_S147x256_S4096x256_1_0_0_1_n_n : DotDims S4096x147 S147x256 S4096x256 where
  lhsContracting := [1]
  rhsContracting := [0]
  lhsNonContracting := [0]
  rhsNonContracting := [1]
  lhsBatch := []
  rhsBatch := []
  wf := dot_S4096x147_S147x256_S4096x256_1_0_0_1_n_n_wf
def gather_S204800x256_S102400x6x1_S102400x6x256_2_0_n_n_0_2_1256 : GatherDims S204800x256 S102400x6x1 S102400x6x256 where
  offsetDims := [2]
  collapsedSliceDims := [0]
  operandBatchingDims := []
  startIndicesBatchingDims := []
  startIndexMap := [0]
  indexVectorDim := 2
  sliceSizes := ![1, 256]
  wf := gather_S204800x256_S102400x6x1_S102400x6x256_2_0_n_n_0_2_1256_wf
def gather_S102400x256_S204800x1_S204800x256_1_0_n_n_0_1_1256 : GatherDims S102400x256 S204800x1 S204800x256 where
  offsetDims := [1]
  collapsedSliceDims := [0]
  operandBatchingDims := []
  startIndicesBatchingDims := []
  startIndexMap := [0]
  indexVectorDim := 1
  sliceSizes := ![1, 256]
  wf := gather_S102400x256_S204800x1_S204800x256_1_0_n_n_0_1_1256_wf
def gather_S204800x256_S204800x1_S204800x256_1_0_n_n_0_1_1256 : GatherDims S204800x256 S204800x1 S204800x256 where
  offsetDims := [1]
  collapsedSliceDims := [0]
  operandBatchingDims := []
  startIndicesBatchingDims := []
  startIndexMap := [0]
  indexVectorDim := 1
  sliceSizes := ![1, 256]
  wf := gather_S204800x256_S204800x1_S204800x256_1_0_n_n_0_1_1256_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S2048x133_S133x256_S2048x256_1_0_0_1_n_n : DotDims S2048x133 S133x256 S2048x256 where
  lhsContracting := [1]
  rhsContracting := [0]
  lhsNonContracting := [0]
  rhsNonContracting := [1]
  lhsBatch := []
  rhsBatch := []
  wf := dot_S2048x133_S133x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def scatter_S4096x256_S102400x1_S102400x256_1_0_0_1 : ScatterDims S4096x256 S102400x1 S102400x256 where
  updateWindowDims := [1]
  insertedWindowDims := [0]
  scatterDimsToOperandDims := [0]
  indexVectorDim := 1
  wf := scatter_S4096x256_S102400x1_S102400x256_1_0_0_1_wf
def scatter_S4096_S102400x1_S102400_n_0_0_1 : ScatterDims S4096 S102400x1 S102400 where
  updateWindowDims := []
  insertedWindowDims := [0]
  scatterDimsToOperandDims := [0]
  indexVectorDim := 1
  wf := scatter_S4096_S102400x1_S102400_n_0_0_1_wf

abbrev win0_0 : Pipeline.Window sig grid0 :=
  Pipeline.Window.ofSpec (Memref.whole main_arg1) S4096x147.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S147x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8_0) S4096x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_1) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8_0) S4096x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S4096x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8_0) S4096x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v62) S4096x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S2048x133.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S133x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v72) S2048x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v6) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v7) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v73) S2048x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S102400x133 : Shape := ⟨2, ![102400, 133]⟩
abbrev S204800x147 : Shape := ⟨2, ![204800, 147]⟩
abbrev S147x256 : Shape := ⟨2, ![147, 256]⟩
abbrev S256x256 : Shape := ⟨2, ![256, 256]⟩
abbrev S389x256 : Shape := ⟨2, ![389, 256]⟩
abbrev S256 : Shape := ⟨1, ![256]⟩
abbrev S102400x6 : Shape := ⟨2, ![102400, 6]⟩
abbrev S204800 : Shape := ⟨1, ![204800]⟩
abbrev S102400 : Shape := ⟨1, ![102400]⟩
abbrev S204800x256 : Shape := ⟨2, ![204800, 256]⟩
abbrev S_ : Shape := ⟨0, ![]⟩
abbrev S102400x6x1 : Shape := ⟨3, ![102400, 6, 1]⟩
abbrev S102400x6x256 : Shape := ⟨3, ![102400, 6, 256]⟩
abbrev S102400x256 : Shape := ⟨2, ![102400, 256]⟩
abbrev S204800x1 : Shape := ⟨2, ![204800, 1]⟩
abbrev S102400x389 : Shape := ⟨2, ![102400, 389]⟩
abbrev S1x256 : Shape := ⟨2, ![1, 256]⟩
abbrev S4096x256 : Shape := ⟨2, ![4096, 256]⟩
abbrev S102400x1 : Shape := ⟨2, ![102400, 1]⟩
abbrev S4096 : Shape := ⟨1, ![4096]⟩
abbrev S4096x1 : Shape := ⟨2, ![4096, 1]⟩

abbrev nBuf : Space → Nat
  | .hbm => 120
  | .vmem => 0
  | .smem => 0
  | _ => 0

abbrev bufTy : (tb : Table) → Fin (tcTables nBuf tb) → BufTy
  | .hbm, ⟨0, _⟩ => ⟨S102400x133, .f32⟩
  | .hbm, ⟨1, _⟩ => ⟨S204800x147, .f32⟩
  | .hbm, ⟨2, _⟩ => ⟨S147x256, .f32⟩
  | .hbm, ⟨3, _⟩ => ⟨S256x256, .f32⟩
  | .hbm, ⟨4, _⟩ => ⟨S256x256, .f32⟩
  | .hbm, ⟨5, _⟩ => ⟨S389x256, .f32⟩
  | .hbm, ⟨6, _⟩ => ⟨S256, .f32⟩
  | .hbm, ⟨7, _⟩ => ⟨S102400x6, .i32⟩
  | .hbm, ⟨8, _⟩ => ⟨S204800, .i32⟩
  | .hbm, ⟨9, _⟩ => ⟨S204800, .i32⟩
  | .hbm, ⟨10, _⟩ => ⟨S102400, .i32⟩
  | .hbm, ⟨11, _⟩ => ⟨S204800x256, .f32⟩
  | .hbm, ⟨12, _⟩ => ⟨S_, .f32⟩
  | .hbm, ⟨13, _⟩ => ⟨S204800x256, .f32⟩
  | .hbm, ⟨14, _⟩ => ⟨S204800x256, .f32⟩
  | .hbm, ⟨15, _⟩ => ⟨S_, .i32⟩
  | .hbm, ⟨16, _⟩ => ⟨S102400x6, .i32⟩
  | .hbm, ⟨17, _⟩ => ⟨S102400x6, .i1⟩
  | .hbm, ⟨18, _⟩ => ⟨S_, .i32⟩
  | .hbm, ⟨19, _⟩ => ⟨S102400x6, .i32⟩
  | .hbm, ⟨20, _⟩ => ⟨S102400x6, .i32⟩
  | .hbm, ⟨21, _⟩ => ⟨S102400x6, .i32⟩
  | .hbm, ⟨22, _⟩ => ⟨S102400x6x1, .i32⟩
  | .hbm, ⟨23, _⟩ => ⟨S102400x6x256, .f32⟩
  | .hbm, ⟨24, _⟩ => ⟨S_, .f32⟩
  | .hbm, ⟨25, _⟩ => ⟨S102400x256, .f32⟩
  | .hbm, ⟨26, _⟩ => ⟨S_, .i32⟩
  | .hbm, ⟨27, _⟩ => ⟨S204800, .i32⟩
  | .hbm, ⟨28, _⟩ => ⟨S204800, .i1⟩
  | .hbm, ⟨29, _⟩ => ⟨S_, .i32⟩
  | .hbm, ⟨30, _⟩ => ⟨S204800, .i32⟩
  | .hbm, ⟨31, _⟩ => ⟨S204800, .i32⟩
  | .hbm, ⟨32, _⟩ => ⟨S204800, .i32⟩
  | .hbm, ⟨33, _⟩ => ⟨S204800x1, .i32⟩
  | .hbm, ⟨34, _⟩ => ⟨S204800x256, .f32⟩
  | .hbm, ⟨35, _⟩ => ⟨S_, .i32⟩
  | .hbm, ⟨36, _⟩ => ⟨S204800, .i32⟩
  | .hbm, ⟨37, _⟩ => ⟨S204800, .i1⟩
  | .hbm, ⟨38, _⟩ => ⟨S_, .i32⟩
  | .hbm, ⟨39, _⟩ => ⟨S204800, .i32⟩
  | .hbm, ⟨40, _⟩ => ⟨S204800, .i32⟩
  | .hbm, ⟨41, _⟩ => ⟨S204800, .i32⟩
  | .hbm, ⟨42, _⟩ => ⟨S204800x1, .i32⟩
  | .hbm, ⟨43, _⟩ => ⟨S204800x256, .f32⟩
  | .hbm, ⟨44, _⟩ => ⟨S204800x256, .f32⟩
  | .hbm, ⟨45, _⟩ => ⟨S204800x256, .f32⟩
  | .hbm, ⟨46, _⟩ => ⟨S204800x256, .f32⟩
  | .hbm, ⟨47, _⟩ => ⟨S_, .f32⟩
  | .hbm, ⟨48, _⟩ => ⟨S204800x256, .f32⟩
  | .hbm, ⟨49, _⟩ => ⟨S204800x256, .f32⟩
  | .hbm, ⟨50, _⟩ => ⟨S_, .i32⟩
  | .hbm, ⟨51, _⟩ => ⟨S102400x6, .i32⟩
  | .hbm, ⟨52, _⟩ => ⟨S102400x6, .i1⟩
  | .hbm, ⟨53, _⟩ => ⟨S_, .i32⟩
  | .hbm, ⟨54, _⟩ => ⟨S102400x6, .i32⟩
  | .hbm, ⟨55, _⟩ => ⟨S102400x6, .i32⟩
  | .hbm, ⟨56, _⟩ => ⟨S102400x6, .i32⟩
  | .hbm, ⟨57, _⟩ => ⟨S102400x6x1, .i32⟩
  | .hbm, ⟨58, _⟩ => ⟨S102400x6x256, .f32⟩
  | .hbm, ⟨59, _⟩ => ⟨S_, .f32⟩
  | .hbm, ⟨60, _⟩ => ⟨S102400x256, .f32⟩
  | .hbm, ⟨61, _⟩ => ⟨S_, .i32⟩
  | .hbm, ⟨62, _⟩ => ⟨S204800, .i32⟩
  | .hbm, ⟨63, _⟩ => ⟨S204800, .i1⟩
  | .hbm, ⟨64, _⟩ => ⟨S_, .i32⟩
  | .hbm, ⟨65, _⟩ => ⟨S204800, .i32⟩
  | .hbm, ⟨66, _⟩ => ⟨S204800, .i32⟩
  | .hbm, ⟨67, _⟩ => ⟨S204800, .i32⟩
  | .hbm, ⟨68, _⟩ => ⟨S204800x1, .i32⟩
  | .hbm, ⟨69, _⟩ => ⟨S204800x256, .f32⟩
  | .hbm, ⟨70, _⟩ => ⟨S_, .i32⟩
  | .hbm, ⟨71, _⟩ => ⟨S204800, .i32⟩
  | .hbm, ⟨72, _⟩ => ⟨S204800, .i1⟩
  | .hbm, ⟨73, _⟩ => ⟨S_, .i32⟩
  | .hbm, ⟨74, _⟩ => ⟨S204800, .i32⟩
  | .hbm, ⟨75, _⟩ => ⟨S204800, .i32⟩
  | .hbm, ⟨76, _⟩ => ⟨S204800, .i32⟩
  | .hbm, ⟨77, _⟩ => ⟨S204800x1, .i32⟩
  | .hbm, ⟨78, _⟩ => ⟨S204800x256, .f32⟩
  | .hbm, ⟨79, _⟩ => ⟨S204800x256, .f32⟩
  | .hbm, ⟨80, _⟩ => ⟨S204800x256, .f32⟩
  | .hbm, ⟨81, _⟩ => ⟨S204800x256, .f32⟩
  | .hbm, ⟨82, _⟩ => ⟨S_, .f32⟩
  | .hbm, ⟨83, _⟩ => ⟨S204800x256, .f32⟩
  | .hbm, ⟨84, _⟩ => ⟨S204800x256, .f32⟩
  | .hbm, ⟨85, _⟩ => ⟨S_, .i32⟩
  | .hbm, ⟨86, _⟩ => ⟨S102400x6, .i32⟩
  | .hbm, ⟨87, _⟩ => ⟨S102400x6, .i1⟩
  | .hbm, ⟨88, _⟩ => ⟨S_, .i32⟩
  | .hbm, ⟨89, _⟩ => ⟨S102400x6, .i32⟩
  | .hbm, ⟨90, _⟩ => ⟨S102400x6, .i32⟩
  | .hbm, ⟨91, _⟩ => ⟨S102400x6, .i32⟩
  | .hbm, ⟨92, _⟩ => ⟨S102400x6x1, .i32⟩
  | .hbm, ⟨93, _⟩ => ⟨S102400x6x256, .f32⟩
  | .hbm, ⟨94, _⟩ => ⟨S_, .f32⟩
  | .hbm, ⟨95, _⟩ => ⟨S102400x256, .f32⟩
  | .hbm, ⟨96, _⟩ => ⟨S102400x389, .f32⟩
  | .hbm, ⟨97, _⟩ => ⟨S102400x256, .f32⟩
  | .hbm, ⟨98, _⟩ => ⟨S1x256, .f32⟩
  | .hbm, ⟨99, _⟩ => ⟨S102400x256, .f32⟩
  | .hbm, ⟨100, _⟩ => ⟨S102400x256, .f32⟩
  | .hbm, ⟨101, _⟩ => ⟨S_, .f32⟩
  | .hbm, ⟨102, _⟩ => ⟨S102400x256, .f32⟩
  | .hbm, ⟨103, _⟩ => ⟨S102400x256, .f32⟩
  | .hbm, ⟨104, _⟩ => ⟨S_, .f32⟩
  | .hbm, ⟨105, _⟩ => ⟨S4096x256, .f32⟩
  | .hbm, ⟨106, _⟩ => ⟨S102400x1, .i32⟩
  | .hbm, ⟨107, _⟩ => ⟨S4096x256, .f32⟩
  | .hbm, ⟨108, _⟩ => ⟨S_, .f32⟩
  | .hbm, ⟨109, _⟩ => ⟨S102400, .f32⟩
  | .hbm, ⟨110, _⟩ => ⟨S_, .f32⟩
  | .hbm, ⟨111, _⟩ => ⟨S4096, .f32⟩
  | .hbm, ⟨112, _⟩ => ⟨S102400x1, .i32⟩
  | .hbm, ⟨113, _⟩ => ⟨S4096, .f32⟩
  | .hbm, ⟨114, _⟩ => ⟨S_, .f32⟩
  | .hbm, ⟨115, _⟩ => ⟨S4096, .f32⟩
  | .hbm, ⟨116, _⟩ => ⟨S4096, .f32⟩
  | .hbm, ⟨117, _⟩ => ⟨S4096x1, .f32⟩
  | .hbm, ⟨118, _⟩ => ⟨S4096x256, .f32⟩
  | .hbm, ⟨119, _⟩ => ⟨S4096x256, .f32⟩
  | _, _ => ⟨S102400x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_cst : Ref sig .tc := ⟨.hbm, 12, rfl⟩
abbrev main_call0_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_c_1 : Ref sig .tc := ⟨.hbm, 26, rfl⟩
abbrev main_v10 : Ref sig .tc := ⟨.hbm, 27, rfl⟩
abbrev main_v11 : Ref sig .tc := ⟨.hbm, 28, rfl⟩
abbrev main_c_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call1_cst : Ref sig .tc := ⟨.hbm, 47, rfl⟩
abbrev main_call1_v0 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_c_9 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_10 : Ref sig .tc := ⟨.hbm, 70, rfl⟩
abbrev main_v43 : Ref sig .tc := ⟨.hbm, 71, rfl⟩
abbrev main_v44 : Ref sig .tc := ⟨.hbm, 72, rfl⟩
abbrev main_c_11 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_call2_cst : Ref sig .tc := ⟨.hbm, 82, rfl⟩
abbrev main_call2_v0 : Ref sig .tc := ⟨.hbm, 83, rfl⟩
abbrev main_v53 : Ref sig .tc := ⟨.hbm, 84, rfl⟩
abbrev main_c_12 : Ref sig .tc := ⟨.hbm, 85, rfl⟩
abbrev main_v54 : Ref sig .tc := ⟨.hbm, 86, rfl⟩
abbrev main_v55 : Ref sig .tc := ⟨.hbm, 87, rfl⟩
abbrev main_c_13 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_14 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_call3_cst : Ref sig .tc := ⟨.hbm, 101, rfl⟩
abbrev main_call3_v0 : Ref sig .tc := ⟨.hbm, 102, rfl⟩
abbrev main_v67 : Ref sig .tc := ⟨.hbm, 103, rfl⟩
abbrev main_cst_15 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_16 : Ref sig .tc := ⟨.hbm, 108, rfl⟩
abbrev main_v71 : Ref sig .tc := ⟨.hbm, 109, rfl⟩
abbrev main_cst_17 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_18 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩

abbrev nD : Nat := 1
abbrev τ : Topo := Topo.v7x

variable {F : FTy → Type} [FloatOps F]

class Facts₀ : Prop where
  bcast_S_S204800x256 : S_.BroadcastsInDim S204800x256 (![] : Fin 0 → Fin S204800x256.rank)
  bcast_S_S102400x6 : S_.BroadcastsInDim S102400x6 (![] : Fin 0 → Fin S102400x6.rank)
  bcast_S102400x6_S102400x6x1_0_1 : S102400x6.BroadcastsInDim S102400x6x1 (![0, 1] : Fin 2 → Fin S102400x6x1.rank)
  reducesTo_S102400x6x256_S102400x256_d1 : S102400x6x256.ReducesTo [1] S102400x256
  h_S_ : 0 < S_.numel
  bcast_S_S204800 : S_.BroadcastsInDim S204800 (![] : Fin 0 → Fin S204800.rank)
  bcast_S204800_S204800x1_0 : S204800.BroadcastsInDim S204800x1 (![0] : Fin 1 → Fin S204800x1.rank)
  concatenates_S102400x133_S102400x256_S102400x389_d1 : Shape.Concatenates [S102400x133, S102400x256] S102400x389 1
  bcast_S256_S1x256_1 : S256.BroadcastsInDim S1x256 (![1] : Fin 1 → Fin S1x256.rank)
  bcast_S1x256_S102400x256_0_1 : S1x256.BroadcastsInDim S102400x256 (![0, 1] : Fin 2 → Fin S102400x256.rank)
  bcast_S_S102400x256 : S_.BroadcastsInDim S102400x256 (![] : Fin 0 → Fin S102400x256.rank)
  bcast_S_S4096x256 : S_.BroadcastsInDim S4096x256 (![] : Fin 0 → Fin S4096x256.rank)
  bcast_S102400_S102400x1_0 : S102400.BroadcastsInDim S102400x1 (![0] : Fin 1 → Fin S102400x1.rank)
  bcast_S_S102400 : S_.BroadcastsInDim S102400 (![] : Fin 0 → Fin S102400.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  dot_S204800x147_S147x256_S204800x256_1_0_0_1_n_n_wf : DotDims.WF S204800x147 S147x256 S204800x256 [1] [0] [0] [1] [] []
  gather_S204800x256_S102400x6x1_S102400x6x256_2_0_n_n_0_2_1256_wf : GatherDims.WF S204800x256 S102400x6x1 S102400x6x256 [2] [0] [] [0] [] 2 ![1, 256]
  gather_S102400x256_S204800x1_S204800x256_1_0_n_n_0_1_1256_wf : GatherDims.WF S102400x256 S204800x1 S204800x256 [1] [0] [] [0] [] 1 ![1, 256]
  gather_S204800x256_S204800x1_S204800x256_1_0_n_n_0_1_1256_wf : GatherDims.WF S204800x256 S204800x1 S204800x256 [1] [0] [] [0] [] 1 ![1, 256]
  dot_S204800x256_S256x256_S204800x256_1_0_0_1_n_n_wf : DotDims.WF S204800x256 S256x256 S204800x256 [1] [0] [0] [1] [] []
  dot_S102400x389_S389x256_S102400x256_1_0_0_1_n_n_wf : DotDims.WF S102400x389 S389x256 S102400x256 [1] [0] [0] [1] [] []
  scatter_S4096x256_S102400x1_S102400x256_1_0_0_1_wf : ScatterDims.WF S4096x256 S102400x1 S102400x256 [1] [0] [0] 1
  scatter_S4096_S102400x1_S102400_n_0_0_1_wf : ScatterDims.WF S4096 S102400x1 S102400 [] [0] [0] 1

variable [Facts₀]

def dot_S204800x147_S147x256_S204800x256_1_0_0_1_n_n : DotDims S204800x147 S147x256 S204800x256 where
  lhsContracting := [1]
  rhsContracting := [0]
  lhsNonContracting := [0]
  rhsNonContracting := [1]
  lhsBatch := []
  rhsBatch := []
  wf := dot_S204800x147_S147x256_S204800x256_1_0_0_1_n_n_wf
def gather_S204800x256_S102400x6x1_S102400x6x256_2_0_n_n_0_2_1256 : GatherDims S204800x256 S102400x6x1 S102400x6x256 where
  offsetDims := [2]
  collapsedSliceDims := [0]
  operandBatchingDims := []
  startIndicesBatchingDims := []
  startIndexMap := [0]
  indexVectorDim := 2
  sliceSizes := ![1, 256]
  wf := gather_S204800x256_S102400x6x1_S102400x6x256_2_0_n_n_0_2_1256_wf
def gather_S102400x256_S204800x1_S204800x256_1_0_n_n_0_1_1256 : GatherDims S102400x256 S204800x1 S204800x256 where
  offsetDims := [1]
  collapsedSliceDims := [0]
  operandBatchingDims := []
  startIndicesBatchingDims := []
  startIndexMap := [0]
  indexVectorDim := 1
  sliceSizes := ![1, 256]
  wf := gather_S102400x256_S204800x1_S204800x256_1_0_n_n_0_1_1256_wf
def gather_S204800x256_S204800x1_S204800x256_1_0_n_n_0_1_1256 : GatherDims S204800x256 S204800x1 S204800x256 where
  offsetDims := [1]
  collapsedSliceDims := [0]
  operandBatchingDims := []
  startIndicesBatchingDims := []
  startIndexMap := [0]
  indexVectorDim := 1
  sliceSizes := ![1, 256]
  wf := gather_S204800x256_S204800x1_S204800x256_1_0_n_n_0_1_1256_wf
def dot_S204800x256_S256x256_S204800x256_1_0_0_1_n_n : DotDims S204800x256 S256x256 S204800x256 where
  lhsContracting := [1]
  rhsContracting := [0]
  lhsNonContracting := [0]
  rhsNonContracting := [1]
  lhsBatch := []
  rhsBatch := []
  wf := dot_S204800x256_S256x256_S204800x256_1_0_0_1_n_n_wf
def dot_S102400x389_S389x256_S102400x256_1_0_0_1_n_n : DotDims S102400x389 S389x256 S102400x256 where
  lhsContracting := [1]
  rhsContracting := [0]
  lhsNonContracting := [0]
  rhsNonContracting := [1]
  lhsBatch := []
  rhsBatch := []
  wf := dot_S102400x389_S389x256_S102400x256_1_0_0_1_n_n_wf
def scatter_S4096x256_S102400x1_S102400x256_1_0_0_1 : ScatterDims S4096x256 S102400x1 S102400x256 where
  updateWindowDims := [1]
  insertedWindowDims := [0]
  scatterDimsToOperandDims := [0]
  indexVectorDim := 1
  wf := scatter_S4096x256_S102400x1_S102400x256_1_0_0_1_wf
def scatter_S4096_S102400x1_S102400_n_0_0_1 : ScatterDims S4096 S102400x1 S102400 where
  updateWindowDims := []
  insertedWindowDims := [0]
  scatterDimsToOperandDims := [0]
  indexVectorDim := 1
  wf := scatter_S4096_S102400x1_S102400_n_0_0_1_wf

class Facts : Prop extends Facts₀ where

variable [Facts]
-- ==== Proof.ResultRun.lean ====
/-
  The idealized kernel's whole run, with its result named.

  @main is nine segments: five stretches of host operations around four grid pipelines. The contents of the
  TensorCore's buffers at each segment boundary form a fold from the launch memory: a host stretch applies its
  operations in order, a pipeline leaves each of its output arrays at what its grid points wrote back and every
  other buffer as it found it. After the last stretch every unscoped buffer holds the last boundary's contents.
  Reading the final state at the result buffer as well as at the eleven argument buffers gives: every weakly fair
  execution terminates, the result array is the fold's value at the result buffer, and the arguments are unchanged.
-/
import proofs.«100643_j12232066859189_2_alg».proof.Proof.Gen.KernelIdeal.Frame

set_option maxRecDepth 16384

noncomputable section

namespace Cert.KernelIdeal.Outcome

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at the value the fold
    of the nine segments gives the result buffer, and each argument array ends as launched. -/
theorem run : θ_run defs (onTc (τ := τ) (main (F := F))) ⟨m, fun _ => 0, ρ⟩ (fun r => ∀ c : Dev nD,
      r.2.mem ((c.tc : Thread nD τ).loc main_v85) = W9 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v85 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.Outcome

end
-- ==== Proof.Products.lean ====
/-
  The body matrix products as plain sums.

  Each grid pipeline's body multiplies a block of rows by a whole weight matrix, contracting the block's column axis
  with the weight's row axis. On the extended reals such a product into a zero accumulator is, entry by entry, the sum
  over the contracted coordinate `k` of (row of the entry, `k`) of the left factor times (`k`, column of the entry) of
  the right factor. Here that sum, which the library states over the contraction's own index type, is re-indexed to a
  sum over `Fin K`, for each of the four products the bodies contain.
-/
import proofs.«100643_j12232066859189_2_alg».proof.Proof.Gen.KernelIdeal
import Idealize.ShloMosaic.PureOps.Ideal.Laws
import Idealize.ShloMosaic.Lib.ValueIdx

noncomputable section

namespace Cert.KernelIdeal.Products

open Cert.KernelIdeal Cert.KernelIdeal.Gen Idealize.ShloMosaic

/-- In a matrix with `K` columns: the entry in the row of `j` and column `k`. -/
abbrev rowOf {M K N : Nat} (j : (⟨2, ![M, N]⟩ : Shape).Idx) (k : Fin K) : (⟨2, ![M, K]⟩ : Shape).Idx := fun a => match a with
  | ⟨0, _⟩ => ⟨(j 0).val, (j 0).isLt⟩
  | ⟨1, _⟩ => ⟨k.val, k.isLt⟩
/-- In a matrix with `K` rows: the entry in row `k` and the column of `j`. -/
abbrev colOf {M K N : Nat} (j : (⟨2, ![M, N]⟩ : Shape).Idx) (k : Fin K) : (⟨2, ![K, N]⟩ : Shape).Idx := fun a => match a with
  | ⟨0, _⟩ => ⟨k.val, k.isLt⟩
  | ⟨1, _⟩ => ⟨(j 1).val, (j 1).isLt⟩

/-- The 4096x147 by 147x256 product at entry `j`: the sum over the 147 contracted coordinates. -/
theorem bonds_sum {φ₁ φ₂ : FTy} (l : FVec Ideal S4096x147 φ₁) (r : FVec Ideal S147x256 φ₂) (j : S4096x256.Idx) :
    (∑ q : dot_S4096x147_S147x256_S4096x256_1_0_0_1_n_n.contr.Idx, l (dot_S4096x147_S147x256_S4096x256_1_0_0_1_n_n.lhsIdx j q) * r (dot_S4096x147_S147x256_S4096x256_1_0_0_1_n_n.rhsIdx j q))
      = ∑ k : Fin 147, l (rowOf j k) * r (colOf j k) := by
  rw [← Equiv.sum_comp (ValueIdx.contrEquiv1 dot_S4096x147_S147x256_S4096x256_1_0_0_1_n_n 147 rfl rfl).symm]
  refine Finset.sum_congr rfl fun k _ => ?_
  have hk := ValueIdx.contrEquiv1_symm_val dot_S4096x147_S147x256_S4096x256_1_0_0_1_n_n 147 rfl rfl k
  have el : dot_S4096x147_S147x256_S4096x256_1_0_0_1_n_n.lhsIdx j ((ValueIdx.contrEquiv1 dot_S4096x147_S147x256_S4096x256_1_0_0_1_n_n 147 rfl rfl).symm k) = rowOf j k := funext fun a => Fin.ext (by
    match a with
    | ⟨0, _⟩ =>
      show (dot_S4096x147_S147x256_S4096x256_1_0_0_1_n_n.lhsIdx j _ 0).val = (j 0).val
      unfold DotDims.lhsIdx
      rw [dif_neg (show ¬(0 : Fin S4096x147.rank) ∈ dot_S4096x147_S147x256_S4096x256_1_0_0_1_n_n.lhsBatch by decide), dif_pos (show (0 : Fin S4096x147.rank) ∈ dot_S4096x147_S147x256_S4096x256_1_0_0_1_n_n.lhsNonContracting by decide)]
      rfl
    | ⟨1, _⟩ => exact (dot_S4096x147_S147x256_S4096x256_1_0_0_1_n_n.lhsIdx_val_of_single rfl j _).trans hk)
  have er : dot_S4096x147_S147x256_S4096x256_1_0_0_1_n_n.rhsIdx j ((ValueIdx.contrEquiv1 dot_S4096x147_S147x256_S4096x256_1_0_0_1_n_n 147 rfl rfl).symm k) = colOf j k := funext fun a => Fin.ext (by
    match a with
    | ⟨0, _⟩ => exact (dot_S4096x147_S147x256_S4096x256_1_0_0_1_n_n.rhsIdx_val_of_single rfl j _).trans hk
    | ⟨1, _⟩ =>
      show (dot_S4096x147_S147x256_S4096x256_1_0_0_1_n_n.rhsIdx j _ 1).val = (j 1).val
      unfold DotDims.rhsIdx
      rw [dif_neg (show ¬(1 : Fin S147x256.rank) ∈ dot_S4096x147_S147x256_S4096x256_1_0_0_1_n_n.rhsBatch by decide), dif_pos (show (1 : Fin S147x256.rank) ∈ dot_S4096x147_S147x256_S4096x256_1_0_0_1_n_n.rhsNonContracting by decide)]
      rfl)
  rw [el, er]

/-- The same product as the body computes it, into a zero accumulator. -/
theorem bonds_matmul {φ₁ φ₂ : FTy} (l : FVec Ideal S4096x147 φ₁) (r : FVec Ideal S147x256 φ₂) (j : S4096x256.Idx) :
    matmul dot_S4096x147_S147x256_S4096x256_1_0_0_1_n_n none l r (constant (F := Ideal) S4096x256 .f32 0x00000000#32) j = ∑ k : Fin 147, l (rowOf j k) * r (colOf j k) :=
  (Ideal.matmul_constant_zero_apply dot_S4096x147_S147x256_S4096x256_1_0_0_1_n_n none l r j).trans (bonds_sum l r j)

/-- The 4096x256 by 256x256 product at entry `j`: the sum over the 256 contracted coordinates. -/
theorem update_sum {φ₁ φ₂ : FTy} (l : FVec Ideal S4096x256 φ₁) (r : FVec Ideal S256x256 φ₂) (j : S4096x256.Idx) :
    (∑ q : dot_S4096x256_S256x256_S4096x256_1_0_0_1_n_n.contr.Idx, l (dot_S4096x256_S256x256_S4096x256_1_0_0_1_n_n.lhsIdx j q) * r (dot_S4096x256_S256x256_S4096x256_1_0_0_1_n_n.rhsIdx j q))
      = ∑ k : Fin 256, l (rowOf j k) * r (colOf j k) := by
  rw [← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx j ((ValueIdx.contrEquiv1 dot_S4096x256_S256x256_S4096x256_1_0_0_1_n_n 256 rfl rfl).symm k) = rowOf j k := funext fun a => Fin.ext (by
    match a with
    | ⟨0, _⟩ =>
      show (dot_S4096x256_S256x256_S4096x256_1_0_0_1_n_n.lhsIdx j _ 0).val = (j 0).val
      unfold DotDims.lhsIdx
      rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
      rfl
    | ⟨1, _⟩ => exact (dot_S4096x256_S256x256_S4096x256_1_0_0_1_n_n.lhsIdx_val_of_single rfl j _).trans hk)
  have er : dot_S4096x256_S256x256_S4096x256_1_0_0_1_n_n.rhsIdx j ((ValueIdx.contrEquiv1 dot_S4096x256_S256x256_S4096x256_1_0_0_1_n_n 256 rfl rfl).symm k) = colOf j k := funext fun a => Fin.ext (by
    match a with
    | ⟨0, _⟩ => exact (dot_S4096x256_S256x256_S4096x256_1_0_0_1_n_n.rhsIdx_val_of_single rfl j _).trans hk
    | ⟨1, _⟩ =>
      show (dot_S4096x256_S256x256_S4096x256_1_0_0_1_n_n.rhsIdx j _ 1).val = (j 1).val
      unfold DotDims.rhsIdx
      rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
      rfl)
  rw [el, er]

/-- The same product as the body computes it, into a zero accumulator. -/
theorem update_matmul {φ₁ φ₂ : FTy} (l : FVec Ideal S4096x256 φ₁) (r : FVec Ideal S256x256 φ₂) (j : S4096x256.Idx) :
    matmul dot_S4096x256_S256x256_S4096x256_1_0_0_1_n_n none l r (constant (F := Ideal) S4096x256 .f32 0x00000000#32) j = ∑ k : Fin 256, l (rowOf j k) * r (colOf j k) :=
  (Ideal.matmul_constant_zero_apply dot_S4096x256_S256x256_S4096x256_1_0_0_1_n_n none l r j).trans (update_sum l r j)

/-- The 2048x133 by 133x256 product at entry `j`: the sum over the 133 contracted coordinates. -/
theorem atoms_sum {φ₁ φ₂ : FTy} (l : FVec Ideal S2048x133 φ₁) (r : FVec Ideal S133x256 φ₂) (j : S2048x256.Idx) :
    (∑ q : dot_S2048x133_S133x256_S2048x256_1_0_0_1_n_n.contr.Idx, l (dot_S2048x133_S133x256_S2048x256_1_0_0_1_n_n.lhsIdx j q) * r (dot_S2048x133_S133x256_S2048x256_1_0_0_1_n_n.rhsIdx j q))
      = ∑ k : Fin 133, l (rowOf j k) * r (colOf j k) := by
  rw [← Equiv.sum_comp (ValueIdx.contrEquiv1 dot_S2048x133_S133x256_S2048x256_1_0_0_1_n_n 133 rfl rfl).symm]
  refine Finset.sum_congr rfl fun k _ => ?_
  have hk := ValueIdx.contrEquiv1_symm_val dot_S2048x133_S133x256_S2048x256_1_0_0_1_n_n 133 rfl rfl k
  have el : dot_S2048x133_S133x256_S2048x256_1_0_0_1_n_n.lhsIdx j ((ValueIdx.contrEquiv1 dot_S2048x133_S133x256_S2048x256_1_0_0_1_n_n 133 rfl rfl).symm k) = rowOf j k := funext fun a => Fin.ext (by
    match a with
    | ⟨0, _⟩ =>
      show (dot_S2048x133_S133x256_S2048x256_1_0_0_1_n_n.lhsIdx j _ 0).val = (j 0).val
      unfold DotDims.lhsIdx
      rw [dif_neg (show ¬(0 : Fin S2048x133.rank) ∈ dot_S2048x133_S133x256_S2048x256_1_0_0_1_n_n.lhsBatch by decide), dif_pos (show (0 : Fin S2048x133.rank) ∈ dot_S2048x133_S133x256_S2048x256_1_0_0_1_n_n.lhsNonContracting by decide)]
      rfl
    | ⟨1, _⟩ => exact (dot_S2048x133_S133x256_S2048x256_1_0_0_1_n_n.lhsIdx_val_of_single rfl j _).trans hk)
  have er : dot_S2048x133_S133x256_S2048x256_1_0_0_1_n_n.rhsIdx j ((ValueIdx.contrEquiv1 dot_S2048x133_S133x256_S2048x256_1_0_0_1_n_n 133 rfl rfl).symm k) = colOf j k := funext fun a => Fin.ext (by
    match a with
    | ⟨0, _⟩ => exact (dot_S2048x133_S133x256_S2048x256_1_0_0_1_n_n.rhsIdx_val_of_single rfl j _).trans hk
    | ⟨1, _⟩ =>
      show (dot_S2048x133_S133x256_S2048x256_1_0_0_1_n_n.rhsIdx j _ 1).val = (j 1).val
      unfold DotDims.rhsIdx
      rw [dif_neg (show ¬(1 : Fin S133x256.rank) ∈ dot_S2048x133_S133x256_S2048x256_1_0_0_1_n_n.rhsBatch by decide), dif_pos (show (1 : Fin S133x256.rank) ∈ dot_S2048x133_S133x256_S2048x256_1_0_0_1_n_n.rhsNonContracting by decide)]
      rfl)
  rw [el, er]

/-- The same product as the body computes it, into a zero accumulator. -/
theorem atoms_matmul {φ₁ φ₂ : FTy} (l : FVec Ideal S2048x133 φ₁) (r : FVec Ideal S133x256 φ₂) (j : S2048x256.Idx) :
    matmul dot_S2048x133_S133x256_S2048x256_1_0_0_1_n_n none l r (constant (F := Ideal) S2048x256 .f32 0x00000000#32) j = ∑ k : Fin 133, l (rowOf j k) * r (colOf j k) :=
  (Ideal.matmul_constant_zero_apply dot_S2048x133_S133x256_S2048x256_1_0_0_1_n_n none l r j).trans (atoms_sum l r j)

/-- The 2048x256 by 256x256 product at entry `j`: the sum over the 256 contracted coordinates. -/
theorem messages_sum {φ₁ φ₂ : FTy} (l : FVec Ideal S2048x256 φ₁) (r : FVec Ideal S256x256 φ₂) (j : S2048x256.Idx) :
    (∑ q : dot_S2048x256_S256x256_S2048x256_1_0_0_1_n_n.contr.Idx, l (dot_S2048x256_S256x256_S2048x256_1_0_0_1_n_n.lhsIdx j q) * r (dot_S2048x256_S256x256_S2048x256_1_0_0_1_n_n.rhsIdx j q))
      = ∑ k : Fin 256, l (rowOf j k) * r (colOf j k) := by
  rw [← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  have el : dot_S2048x256_S256x256_S2048x256_1_0_0_1_n_n.lhsIdx j ((ValueIdx.contrEquiv1 dot_S2048x256_S256x256_S2048x256_1_0_0_1_n_n 256 rfl rfl).symm k) = rowOf j k := funext fun a => Fin.ext (by
    match a with
    | ⟨0, _⟩ =>
      show (dot_S2048x256_S256x256_S2048x256_1_0_0_1_n_n.lhsIdx j _ 0).val = (j 0).val
      unfold DotDims.lhsIdx
      rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
      rfl
    | ⟨1, _⟩ => exact (dot_S2048x256_S256x256_S2048x256_1_0_0_1_n_n.lhsIdx_val_of_single rfl j _).trans hk)
  have er : dot_S2048x256_S256x256_S2048x256_1_0_0_1_n_n.rhsIdx j ((ValueIdx.contrEquiv1 dot_S2048x256_S256x256_S2048x256_1_0_0_1_n_n 256 rfl rfl).symm k) = colOf j k := funext fun a => Fin.ext (by
    match a with
    | ⟨0, _⟩ => exact (dot_S2048x256_S256x256_S2048x256_1_0_0_1_n_n.rhsIdx_val_of_single rfl j _).trans hk
    | ⟨1, _⟩ =>
      show (dot_S2048x256_S256x256_S2048x256_1_0_0_1_n_n.rhsIdx j _ 1).val = (j 1).val
      unfold DotDims.rhsIdx
      rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
      rfl)
  rw [el, er]

/-- The same product as the body computes it, into a zero accumulator. -/
theorem messages_matmul {φ₁ φ₂ : FTy} (l : FVec Ideal S2048x256 φ₁) (r : FVec Ideal S256x256 φ₂) (j : S2048x256.Idx) :
    matmul dot_S2048x256_S256x256_S2048x256_1_0_0_1_n_n none l r (constant (F := Ideal) S2048x256 .f32 0x00000000#32) j = ∑ k : Fin 256, l (rowOf j k) * r (colOf j k) :=
  (Ideal.matmul_constant_zero_apply dot_S2048x256_S256x256_S2048x256_1_0_0_1_n_n none l r j).trans (messages_sum l r j)

end Cert.KernelIdeal.Products

end
-- ==== Proof.Bonds.lean ====
/-
  The first pipeline: bond features times the input weights.

  The grid has 50 points; point `t` holds rows 4096·t … 4096·t + 4095 of the bond features (all 147 columns) and the
  whole 147 × 256 weight matrix, and writes back rows 4096·t … 4096·t + 4095 of two arrays: the product, and the
  product clipped below at zero. Entry (r, c) of the product depends on row r of the features and column c of the
  weights only, so each written block is the restriction of one whole-array function, and the 50 blocks tile the
  204800 rows: the two arrays end holding the whole product and its clipped copy.
-/
import proofs.«100643_j12232066859189_2_alg».proof.Proof.Gen.KernelIdeal.Frame
import proofs.«100643_j12232066859189_2_alg».proof.Proof.Products
import Idealize.ShloMosaic.Lib.Pipeline.Value

set_option maxRecDepth 16384

noncomputable section

namespace Cert.KernelIdeal.Bonds

open Cert.KernelIdeal Cert.KernelIdeal.Gen Cert.KernelIdeal.Products
open Idealize.ShloMosaic Idealize.ShloMosaic.TcCoe Idealize.SL.Sem
open Idealize.ShloMosaic.Pipeline (Dat Cfg Window)

/-- The product of a 204800 × 147 array and a 147 × 256 array, entry by entry. -/
def prod (x : S204800x147.Idx → EReal) (w : S147x256.Idx → EReal) : S204800x256.Idx → EReal :=
  fun i => ∑ k : Fin 147, x (rowOf i k) * w (colOf i k)

/-- The product clipped below at zero. -/
def clipped (x : S204800x147.Idx → EReal) (w : S147x256.Idx → EReal) : S204800x256.Idx → EReal :=
  fun i => max (prod x w i) (Ideal.ofBits .f32 0x00000000#32)

theorem origin : (![0, 0] : Fin 2 → Nat) = fun _ => 0 := funext fun a => by fin_cases a <;> rfl

/-- The body's first stored value at an entry of the block: the block's row times the weights' column. -/
theorem stored_prod (x0 : Vec Ideal S4096x147 .f32) (x1 : Vec Ideal S147x256 .bf16) (j : S4096x256.Idx) :
    k0_pay1 x0 x1 j = ∑ k : Fin 147, x0 (rowOf j k) * x1 (colOf j k) := by
  unfold k0_pay1
  refine (bonds_matmul _ _ j).trans ?_
  refine Finset.sum_congr rfl fun k _ => ?_
  exact congrArg (x0 (rowOf j k) * ·) (congrFun (shapeCast_self x1 _) (colOf j k))

/-- The body's second stored value: the same sum clipped below at zero. -/
theorem stored_clipped (x0 : Vec Ideal S4096x147 .f32) (x1 : Vec Ideal S147x256 .bf16) (j : S4096x256.Idx) :
    k0_pay2 x0 x1 j = max (∑ k : Fin 147, x0 (rowOf j k) * x1 (colOf j k)) (Ideal.ofBits .f32 0x00000000#32) := by
  unfold k0_pay2
  exact congrArg (max · (Ideal.ofBits .f32 0x00000000#32)) (stored_prod x0 x1 j)

/-- Where the printed index maps send a point: the feature window and both output windows to block row `t`, column
    block 0; the weight window to block (0, 0). -/
theorem maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The point's blocks, read where the body's sum reads them, are the arrays read in the row that an output block
    gives its entry `j` (row 4096·t + the row of `j`) and in `j`'s column: a block's coordinate is index × size plus the
    coordinate inside the block, the feature blocks move with the output blocks and the weights stay whole. -/
theorem block_entry (x : S204800x147.Idx → EReal) (w : S147x256.Idx → EReal) (t : Fin cfg0.N) (j : S4096x256.Idx)
    (i : S204800x256.Idx) (hi0 : (i 0).val = t.val * 4096 + (j 0).val) (hi1 : (i 1).val = (j 1).val) :
    (∑ k : Fin 147, x (((cfg0.win 0).blk t).view.emb (rowOf j k)) * w (((cfg0.win 1).blk t).view.emb (colOf j k)))
      = prod x w i := by
  obtain ⟨e0, e1, e2, e3, e4, e5, e6, e7⟩ := maps t
  unfold prod
  refine Finset.sum_congr rfl fun k _ => ?_
  have h0 : ((cfg0.win 0).blk t).view.emb (rowOf j k) = rowOf i k := by
    funext a; apply Fin.ext
    match a with
    | ⟨0, _⟩ => show win0_0.index t (0 : Fin 2) * 4096 + 1 * (j 0).val = (i 0).val; omega
    | ⟨1, _⟩ => show win0_0.index t (1 : Fin 2) * 147 + 1 * k.val = k.val; omega
  have h1 : ((cfg0.win 1).blk t).view.emb (colOf j k) = colOf i k := by
    funext a; apply Fin.ext
    match a with
    | ⟨0, _⟩ => show win0_1.index t (0 : Fin 2) * 147 + 1 * k.val = k.val; omega
    | ⟨1, _⟩ => show win0_1.index t (1 : Fin 2) * 256 + 1 * (j 1).val = (i 1).val; omega
  rw [h0, h1]

section
variable (V : (c : Dev nD) → (b : Ref sig .tc) → Buf (Elt Ideal) ((c : Thread nD τ).loc b))

/-- What point `t` writes back to the first output array is block `t` of the whole product. -/
theorem flushed_prod (c : Dev nD) (t : Fin cfg0.N) :
    (dat0 V c).flushed 2 t = ((cfg0.win 2).blk t).view.read (Elt Ideal) (prod (V c main_arg1) (V c main_v0)) := by
  show (cfg0.win 2).cut (grid0.coords t) ((dat0 V c).after 2 t) = _
  rw [after0_2]
  unfold out0_2
  rw [View.canon_unit_zero origin]
  simp only [View.ld_unit_zero (S := S4096x147) origin, View.ld_unit_zero (S := S147x256) origin]
  obtain ⟨e0, e1, e2, e3, e4, e5, e6, e7⟩ := maps t
  funext j
  show k0_pay1 (iblk0 V c 0 t) (iblk0 V c 1 t) j = prod (V c main_arg1) (V c main_v0) (((cfg0.win 2).blk t).view.emb j)
  refine (stored_prod _ _ j).trans ?_
  exact block_entry (V c main_arg1) (V c main_v0) t j _
    (by show win0_2.index t (0 : Fin 2) * 4096 + 1 * (j 0).val = _; omega)
    (by show win0_2.index t (1 : Fin 2) * 256 + 1 * (j 1).val = _; omega)

/-- What point `t` writes back to the second output array is block `t` of the clipped product. -/
theorem flushed_clipped (c : Dev nD) (t : Fin cfg0.N) :
    (dat0 V c).flushed 3 t = ((cfg0.win 3).blk t).view.read (Elt Ideal) (clipped (V c main_arg1) (V c main_v0)) := by
  show (cfg0.win 3).cut (grid0.coords t) ((dat0 V c).after 3 t) = _
  rw [after0_3]
  unfold out0_3
  rw [View.canon_unit_zero origin]
  simp only [View.ld_unit_zero (S := S4096x147) origin, View.ld_unit_zero (S := S147x256) origin]
  obtain ⟨e0, e1, e2, e3, e4, e5, e6, e7⟩ := maps t
  funext j
  show k0_pay2 (iblk0 V c 0 t) (iblk0 V c 1 t) j = clipped (V c main_arg1) (V c main_v0) (((cfg0.win 3).blk t).view.emb j)
  refine (stored_clipped _ _ j).trans ?_
  unfold clipped
  exact congrArg (max · (Ideal.ofBits .f32 0x00000000#32)) (block_entry (V c main_arg1) (V c main_v0) t j _
    (by show win0_3.index t (0 : Fin 2) * 4096 + 1 * (j 0).val = _; omega)
    (by show win0_3.index t (1 : Fin 2) * 256 + 1 * (j 1).val = _; omega))

end

/-- An entry of a 204800 × 256 array lies in point `t`'s block of an output window iff each coordinate lies in the
    block's range on its axis. -/
theorem mem_block2 (t : Fin cfg0.N) (i : S204800x256.Idx) :
    i ∈ ((cfg0.win 2).blk t).view.set ↔ ∀ a : Fin 2, win0_2.index t a * S4096x256.size a ≤ (i a).val ∧ (i a).val < win0_2.index t a * S4096x256.size a + S4096x256.size a := by
  show i ∈ ((View.whole main_v8_0).slice (win0_2.rect t)).set ↔ _
  rw [View.set_slice_whole, Rect.mem_set_unit]
  exact Iff.rfl
theorem mem_block3 (t : Fin cfg0.N) (i : S204800x256.Idx) :
    i ∈ ((cfg0.win 3).blk t).view.set ↔ ∀ a : Fin 2, win0_3.index t a * S4096x256.size a ≤ (i a).val ∧ (i a).val < win0_3.index t a * S4096x256.size a + S4096x256.size a := by
  show i ∈ ((View.whole main_v8_1).slice (win0_3.rect t)).set ↔ _
  rw [View.set_slice_whole, Rect.mem_set_unit]
  exact Iff.rfl

/-- Row `r` is in the block of point `r / 4096`: the 50 blocks tile the rows. -/
theorem cover2 (i : S204800x256.Idx) : ∃ t : Fin cfg0.N, (cfg0.win 2).flush t = true ∧ i ∈ ((cfg0.win 2).blk t).view.set := by
  have hi0 : (i 0).val < 204800 := (i 0).isLt
  have hi1 : (i 1).val < 256 := (i 1).isLt
  have hN : cfg0.N = 50 := N_0
  let t : Fin cfg0.N := ⟨(i 0).val / 4096, by omega⟩
  have ht : t.val = (i 0).val / 4096 := rfl
  obtain ⟨e0, e1, e2, e3, e4, e5, e6, e7⟩ := maps t
  refine ⟨t, flush0_2 t, ?_⟩
  rw [mem_block2]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 256 ≤ (i 1).val ∧ (i 1).val < win0_2.index t (1 : Fin 2) * 256 + 256; omega
theorem cover3 (i : S204800x256.Idx) : ∃ t : Fin cfg0.N, (cfg0.win 3).flush t = true ∧ i ∈ ((cfg0.win 3).blk t).view.set := by
  have hi0 : (i 0).val < 204800 := (i 0).isLt
  have hi1 : (i 1).val < 256 := (i 1).isLt
  have hN : cfg0.N = 50 := N_0
  let t : Fin cfg0.N := ⟨(i 0).val / 4096, by omega⟩
  have ht : t.val = (i 0).val / 4096 := rfl
  obtain ⟨e0, e1, e2, e3, e4, e5, e6, e7⟩ := maps t
  refine ⟨t, flush0_3 t, ?_⟩
  rw [mem_block3]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 256 ≤ (i 1).val ∧ (i 1).val < win0_3.index t (1 : Fin 2) * 256 + 256; omega

section
variable (V : (c : Dev nD) → (b : Ref sig .tc) → Buf (Elt Ideal) ((c : Thread nD τ).loc b))

/-- After the pipeline the first output array is the whole product of the two arrays it was entered with. -/
theorem product_array (c : Dev nD) : (dat0 V c).arrAt 2 cfg0.N = prod (V c main_arg1) (V c main_v0) :=
  (dat0 V c).arrAt_eq_of_cover 2 (prod (V c main_arg1) (V c main_v0)) (fun t _ => flushed_prod V c t) cover2

/-- And the second the clipped product. -/
theorem clipped_array (c : Dev nD) : (dat0 V c).arrAt 3 cfg0.N = clipped (V c main_arg1) (V c main_v0) :=
  (dat0 V c).arrAt_eq_of_cover 3 (clipped (V c main_arg1) (V c main_v0)) (fun t _ => flushed_clipped V c t) cover3

end

end Cert.KernelIdeal.Bonds

end
-- ==== Proof.Update1.lean ====
/-
  The second pipeline: the first message update.

  The grid has 50 points; point `t` holds rows 4096·t … 4096·t + 4095 of the incoming messages and of the bond
  pre-activations (all 256 columns) and the whole 256 × 256 weight matrix, and writes back the same rows of the new
  messages: the messages' row times the weights' column, plus the pre-activation, clipped below at zero. Each entry
  depends on its own row of the two streamed arrays only, so each written block is the restriction of one whole-array
  function, and the 50 blocks tile the 204800 rows.
-/
import proofs.«100643_j12232066859189_2_alg».proof.Proof.Gen.KernelIdeal.Frame
import proofs.«100643_j12232066859189_2_alg».proof.Proof.Products
import Idealize.ShloMosaic.Lib.Pipeline.Value

set_option maxRecDepth 16384

noncomputable section

namespace Cert.KernelIdeal.Update1

open Cert.KernelIdeal Cert.KernelIdeal.Gen Cert.KernelIdeal.Products
open Idealize.ShloMosaic Idealize.ShloMosaic.TcCoe Idealize.SL.Sem
open Idealize.ShloMosaic.Pipeline (Dat Cfg Window)

/-- Messages times weights plus the pre-activation, clipped below at zero, entry by entry. -/
def next (x : S204800x256.Idx → EReal) (w : S256x256.Idx → EReal) (r : S204800x256.Idx → EReal) : S204800x256.Idx → EReal :=
  fun i => max ((∑ k : Fin 256, x (rowOf i k) * w (colOf i k)) + r i) (Ideal.ofBits .f32 0x00000000#32)

theorem origin : (![0, 0] : Fin 2 → Nat) = fun _ => 0 := funext fun a => by fin_cases a <;> rfl

/-- The body's stored value at an entry of the block. -/
theorem stored (x0 : Vec Ideal S4096x256 .bf16) (x1 : Vec Ideal S256x256 .bf16) (x2 : Vec Ideal S4096x256 .f32) (j : S4096x256.Idx) :
    k1_pay1 x0 x1 x2 j = max ((∑ k : Fin 256, x0 (rowOf j k) * x1 (colOf j k)) + x2 j) (Ideal.ofBits .f32 0x00000000#32) := by
  unfold k1_pay1
  exact congrArg₂ (fun a b => max (a + b) (Ideal.ofBits .f32 0x00000000#32))
    ((update_matmul _ _ j).trans (Finset.sum_congr rfl fun k _ =>
      congrArg₂ (· * ·) (congrFun (shapeCast_self x0 _) (rowOf j k)) (congrFun (shapeCast_self x1 _) (colOf j k))))
    (congrFun (shapeCast_self x2 _) j)

/-- Where the printed index maps send a point: the two streamed windows and the output window to block row `t`,
    column block 0; the weight window to block (0, 0). -/
theorem maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The point's blocks, read where the body reads them, are the arrays read in the row an output block gives its
    entry `j` (row 4096·t + the row of `j`) and in `j`'s column. -/
theorem block_entry (x : S204800x256.Idx → EReal) (w : S256x256.Idx → EReal) (r : S204800x256.Idx → EReal) (t : Fin cfg1.N)
    (j : S4096x256.Idx) (i : S204800x256.Idx) (hi0 : (i 0).val = t.val * 4096 + (j 0).val) (hi1 : (i 1).val = (j 1).val) :
    max ((∑ k : Fin 256, x (((cfg1.win 0).blk t).view.emb (rowOf j k)) * w (((cfg1.win 1).blk t).view.emb (colOf j k)))
        + r (((cfg1.win 2).blk t).view.emb j)) (Ideal.ofBits .f32 0x00000000#32)
      = next x w r i := by
  obtain ⟨e0, e1, e2, e3, e4, e5, e6, e7⟩ := maps t
  unfold next
  have h2 : ((cfg1.win 2).blk t).view.emb j = i := by
    funext a; apply Fin.ext
    match a with
    | ⟨0, _⟩ => show win1_2.index t (0 : Fin 2) * 4096 + 1 * (j 0).val = (i 0).val; omega
    | ⟨1, _⟩ => show win1_2.index t (1 : Fin 2) * 256 + 1 * (j 1).val = (i 1).val; omega
  rw [h2]
  refine congrArg (fun s => max (s + r i) (Ideal.ofBits .f32 0x00000000#32)) (Finset.sum_congr rfl fun k _ => ?_)
  have h0 : ((cfg1.win 0).blk t).view.emb (rowOf j k) = rowOf i k := by
    funext a; apply Fin.ext
    match a with
    | ⟨0, _⟩ => show win1_0.index t (0 : Fin 2) * 4096 + 1 * (j 0).val = (i 0).val; omega
    | ⟨1, _⟩ => show win1_0.index t (1 : Fin 2) * 256 + 1 * k.val = k.val; omega
  have h1 : ((cfg1.win 1).blk t).view.emb (colOf j k) = colOf i k := by
    funext a; apply Fin.ext
    match a with
    | ⟨0, _⟩ => show win1_1.index t (0 : Fin 2) * 256 + 1 * k.val = k.val; omega
    | ⟨1, _⟩ => show win1_1.index t (1 : Fin 2) * 256 + 1 * (j 1).val = (i 1).val; omega
  rw [h0, h1]

section
variable (V : (c : Dev nD) → (b : Ref sig .tc) → Buf (Elt Ideal) ((c : Thread nD τ).loc b))

/-- What point `t` writes back is block `t` of the whole-array function. -/
theorem flushed_next (c : Dev nD) (t : Fin cfg1.N) :
    (dat1 V c).flushed 3 t = ((cfg1.win 3).blk t).view.read (Elt Ideal) (next (V c main_v34) (V c main_v1) (V c main_v8_0)) := by
  show (cfg1.win 3).cut (grid1.coords t) ((dat1 V c).after 3 t) = _
  rw [after1_3]
  unfold out1_3
  rw [View.canon_unit_zero origin]
  simp only [View.ld_unit_zero (S := S4096x256) origin, View.ld_unit_zero (S := S256x256) origin]
  obtain ⟨e0, e1, e2, e3, e4, e5, e6, e7⟩ := maps t
  funext j
  show k1_pay1 (iblk1 V c 0 t) (iblk1 V c 1 t) (iblk1 V c 2 t) j
      = next (V c main_v34) (V c main_v1) (V c main_v8_0) (((cfg1.win 3).blk t).view.emb j)
  refine (stored _ _ _ j).trans ?_
  exact block_entry (V c main_v34) (V c main_v1) (V c main_v8_0) t j _
    (by show win1_3.index t (0 : Fin 2) * 4096 + 1 * (j 0).val = _; omega)
    (by show win1_3.index t (1 : Fin 2) * 256 + 1 * (j 1).val = _; omega)

end

/-- An entry lies in point `t`'s block of the output window iff each coordinate lies in the block's range. -/
theorem mem_block (t : Fin cfg1.N) (i : S204800x256.Idx) :
    i ∈ ((cfg1.win 3).blk t).view.set ↔ ∀ a : Fin 2, win1_3.index t a * S4096x256.size a ≤ (i a).val ∧ (i a).val < win1_3.index t a * S4096x256.size a + S4096x256.size a := by
  show i ∈ ((View.whole main_v35).slice (win1_3.rect t)).set ↔ _
  rw [View.set_slice_whole, Rect.mem_set_unit]
  exact Iff.rfl

/-- Row `r` is in the block of point `r / 4096`: the 50 blocks tile the rows. -/
theorem cover (i : S204800x256.Idx) : ∃ t : Fin cfg1.N, (cfg1.win 3).flush t = true ∧ i ∈ ((cfg1.win 3).blk t).view.set := by
  have hi0 : (i 0).val < 204800 := (i 0).isLt
  have hi1 : (i 1).val < 256 := (i 1).isLt
  have hN : cfg1.N = 50 := N_1
  let t : Fin cfg1.N := ⟨(i 0).val / 4096, by omega⟩
  have ht : t.val = (i 0).val / 4096 := rfl
  obtain ⟨e0, e1, e2, e3, e4, e5, e6, e7⟩ := maps t
  refine ⟨t, flush1_3 t, ?_⟩
  rw [mem_block]
  intro a
  match a with
  | ⟨0, _⟩ => show win1_3.index t (0 : Fin 2) * 4096 ≤ (i 0).val ∧ (i 0).val < win1_3.index t (0 : Fin 2) * 4096 + 4096; omega
  | ⟨1, _⟩ => show win1_3.index t (1 : Fin 2) * 256 ≤ (i 1).val ∧ (i 1).val < win1_3.index t (1 : Fin 2) * 256 + 256; omega

section
variable (V : (c : Dev nD) → (b : Ref sig .tc) → Buf (Elt Ideal) ((c : Thread nD τ).loc b))

/-- After the pipeline the output array is the whole-array function of the three arrays it was entered with. -/
theorem next_array (c : Dev nD) : (dat1 V c).arrAt 3 cfg1.N = next (V c main_v34) (V c main_v1) (V c main_v8_0) :=
  (dat1 V c).arrAt_eq_of_cover 3 (next (V c main_v34) (V c main_v1) (V c main_v8_0)) (fun t _ => flushed_next V c t) cover

end

end Cert.KernelIdeal.Update1

end
-- ==== Proof.Update2.lean ====
/-
  The third pipeline: the second message update.

  The grid has 50 points; point `t` holds rows 4096·t … 4096·t + 4095 of the incoming messages and of the bond
  pre-activations (all 256 columns) and the whole 256 × 256 weight matrix, and writes back the same rows of the new
  messages: the messages' row times the weights' column, plus the pre-activation, clipped below at zero. Each entry
  depends on its own row of the two streamed arrays only, so each written block is the restriction of one whole-array
  function, and the 50 blocks tile the 204800 rows.
-/
import proofs.«100643_j12232066859189_2_alg».proof.Proof.Gen.KernelIdeal.Frame
import proofs.«100643_j12232066859189_2_alg».proof.Proof.Products
import Idealize.ShloMosaic.Lib.Pipeline.Value

set_option maxRecDepth 16384

noncomputable section

namespace Cert.KernelIdeal.Update2

open Cert.KernelIdeal Cert.KernelIdeal.Gen Cert.KernelIdeal.Products
open Idealize.ShloMosaic Idealize.ShloMosaic.TcCoe Idealize.SL.Sem
open Idealize.ShloMosaic.Pipeline (Dat Cfg Window)

/-- Messages times weights plus the pre-activation, clipped below at zero, entry by entry. -/
def next (x : S204800x256.Idx → EReal) (w : S256x256.Idx → EReal) (r : S204800x256.Idx → EReal) : S204800x256.Idx → EReal :=
  fun i => max ((∑ k : Fin 256, x (rowOf i k) * w (colOf i k)) + r i) (Ideal.ofBits .f32 0x00000000#32)

theorem origin : (![0, 0] : Fin 2 → Nat) = fun _ => 0 := funext fun a => by fin_cases a <;> rfl

/-- The body's stored value at an entry of the block. -/
theorem stored (x0 : Vec Ideal S4096x256 .bf16) (x1 : Vec Ideal S256x256 .bf16) (x2 : Vec Ideal S4096x256 .f32) (j : S4096x256.Idx) :
    k2_pay1 x0 x1 x2 j = max ((∑ k : Fin 256, x0 (rowOf j k) * x1 (colOf j k)) + x2 j) (Ideal.ofBits .f32 0x00000000#32) := by
  unfold k2_pay1
  exact congrArg₂ (fun a b => max (a + b) (Ideal.ofBits .f32 0x00000000#32))
    ((update_matmul _ _ j).trans (Finset.sum_congr rfl fun k _ =>
      congrArg₂ (· * ·) (congrFun (shapeCast_self x0 _) (rowOf j k)) (congrFun (shapeCast_self x1 _) (colOf j k))))
    (congrFun (shapeCast_self x2 _) j)

/-- Where the printed index maps send a point: the two streamed windows and the output window to block row `t`,
    column block 0; the weight window to block (0, 0). -/
theorem maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The point's blocks, read where the body reads them, are the arrays read in the row an output block gives its
    entry `j` (row 4096·t + the row of `j`) and in `j`'s column. -/
theorem block_entry (x : S204800x256.Idx → EReal) (w : S256x256.Idx → EReal) (r : S204800x256.Idx → EReal) (t : Fin cfg2.N)
    (j : S4096x256.Idx) (i : S204800x256.Idx) (hi0 : (i 0).val = t.val * 4096 + (j 0).val) (hi1 : (i 1).val = (j 1).val) :
    max ((∑ k : Fin 256, x (((cfg2.win 0).blk t).view.emb (rowOf j k)) * w (((cfg2.win 1).blk t).view.emb (colOf j k)))
        + r (((cfg2.win 2).blk t).view.emb j)) (Ideal.ofBits .f32 0x00000000#32)
      = next x w r i := by
  obtain ⟨e0, e1, e2, e3, e4, e5, e6, e7⟩ := maps t
  unfold next
  have h2 : ((cfg2.win 2).blk t).view.emb j = i := by
    funext a; apply Fin.ext
    match a with
    | ⟨0, _⟩ => show win2_2.index t (0 : Fin 2) * 4096 + 1 * (j 0).val = (i 0).val; omega
    | ⟨1, _⟩ => show win2_2.index t (1 : Fin 2) * 256 + 1 * (j 1).val = (i 1).val; omega
  rw [h2]
  refine congrArg (fun s => max (s + r i) (Ideal.ofBits .f32 0x00000000#32)) (Finset.sum_congr rfl fun k _ => ?_)
  have h0 : ((cfg2.win 0).blk t).view.emb (rowOf j k) = rowOf i k := by
    funext a; apply Fin.ext
    match a with
    | ⟨0, _⟩ => show win2_0.index t (0 : Fin 2) * 4096 + 1 * (j 0).val = (i 0).val; omega
    | ⟨1, _⟩ => show win2_0.index t (1 : Fin 2) * 256 + 1 * k.val = k.val; omega
  have h1 : ((cfg2.win 1).blk t).view.emb (colOf j k) = colOf i k := by
    funext a; apply Fin.ext
    match a with
    | ⟨0, _⟩ => show win2_1.index t (0 : Fin 2) * 256 + 1 * k.val = k.val; omega
    | ⟨1, _⟩ => show win2_1.index t (1 : Fin 2) * 256 + 1 * (j 1).val = (i 1).val; omega
  rw [h0, h1]

section
variable (V : (c : Dev nD) → (b : Ref sig .tc) → Buf (Elt Ideal) ((c : Thread nD τ).loc b))

/-- What point `t` writes back is block `t` of the whole-array function. -/
theorem flushed_next (c : Dev nD) (t : Fin cfg2.N) :
    (dat2 V c).flushed 3 t = ((cfg2.win 3).blk t).view.read (Elt Ideal) (next (V c main_v61) (V c main_v2) (V c main_v8_0)) := by
  show (cfg2.win 3).cut (grid2.coords t) ((dat2 V c).after 3 t) = _
  rw [after2_3]
  unfold out2_3
  rw [View.canon_unit_zero origin]
  simp only [View.ld_unit_zero (S := S4096x256) origin, View.ld_unit_zero (S := S256x256) origin]
  obtain ⟨e0, e1, e2, e3, e4, e5, e6, e7⟩ := maps t
  funext j
  show k2_pay1 (iblk2 V c 0 t) (iblk2 V c 1 t) (iblk2 V c 2 t) j
      = next (V c main_v61) (V c main_v2) (V c main_v8_0) (((cfg2.win 3).blk t).view.emb j)
  refine (stored _ _ _ j).trans ?_
  exact block_entry (V c main_v61) (V c main_v2) (V c main_v8_0) t j _
    (by show win2_3.index t (0 : Fin 2) * 4096 + 1 * (j 0).val = _; omega)
    (by show win2_3.index t (1 : Fin 2) * 256 + 1 * (j 1).val = _; omega)

end

/-- An entry lies in point `t`'s block of the output window iff each coordinate lies in the block's range. -/
theorem mem_block (t : Fin cfg2.N) (i : S204800x256.Idx) :
    i ∈ ((cfg2.win 3).blk t).view.set ↔ ∀ a : Fin 2, win2_3.index t a * S4096x256.size a ≤ (i a).val ∧ (i a).val < win2_3.index t a * S4096x256.size a + S4096x256.size a := by
  show i ∈ ((View.whole main_v62).slice (win2_3.rect t)).set ↔ _
  rw [View.set_slice_whole, Rect.mem_set_unit]
  exact Iff.rfl

/-- Row `r` is in the block of point `r / 4096`: the 50 blocks tile the rows. -/
theorem cover (i : S204800x256.Idx) : ∃ t : Fin cfg2.N, (cfg2.win 3).flush t = true ∧ i ∈ ((cfg2.win 3).blk t).view.set := by
  have hi0 : (i 0).val < 204800 := (i 0).isLt
  have hi1 : (i 1).val < 256 := (i 1).isLt
  have hN : cfg2.N = 50 := N_2
  let t : Fin cfg2.N := ⟨(i 0).val / 4096, by omega⟩
  have ht : t.val = (i 0).val / 4096 := rfl
  obtain ⟨e0, e1, e2, e3, e4, e5, e6, e7⟩ := maps t
  refine ⟨t, flush2_3 t, ?_⟩
  rw [mem_block]
  intro a
  match a with
  | ⟨0, _⟩ => show win2_3.index t (0 : Fin 2) * 4096 ≤ (i 0).val ∧ (i 0).val < win2_3.index t (0 : Fin 2) * 4096 + 4096; omega
  | ⟨1, _⟩ => show win2_3.index t (1 : Fin 2) * 256 ≤ (i 1).val ∧ (i 1).val < win2_3.index t (1 : Fin 2) * 256 + 256; omega

section
variable (V : (c : Dev nD) → (b : Ref sig .tc) → Buf (Elt Ideal) ((c : Thread nD τ).loc b))

/-- After the pipeline the output array is the whole-array function of the three arrays it was entered with. -/
theorem next_array (c : Dev nD) : (dat2 V c).arrAt 3 cfg2.N = next (V c main_v61) (V c main_v2) (V c main_v8_0) :=
  (dat2 V c).arrAt_eq_of_cover 3 (next (V c main_v61) (V c main_v2) (V c main_v8_0)) (fun t _ => flushed_next V c t) cover

end

end Cert.KernelIdeal.Update2

end
-- ==== Proof.Readout.lean ====
/-
  The fourth pipeline: the atom readout.

  The grid has 50 points; point `t` holds rows 2048·t … 2048·t + 2047 of the atom features (133 columns) and of the
  summed incoming messages (256 columns), the two weight matrices (133 × 256 and 256 × 256) and the bias row whole,
  and writes back the same rows of the atom hidden states: features' row times the first weights' column, plus
  messages' row times the second weights' column, plus the bias at the column, clipped below at zero. Each entry
  depends on its own row of the two streamed arrays only, so each written block is the restriction of one
  whole-array function, and the 50 blocks tile the 102400 rows.
-/
import proofs.«100643_j12232066859189_2_alg».proof.Proof.Gen.KernelIdeal.Frame
import proofs.«100643_j12232066859189_2_alg».proof.Proof.Products
import Idealize.ShloMosaic.Lib.ValueLayout
import Idealize.ShloMosaic.Lib.Pipeline.Value

set_option maxRecDepth 16384

noncomputable section

namespace Cert.KernelIdeal.Readout

open Cert.KernelIdeal Cert.KernelIdeal.Gen Cert.KernelIdeal.Products
open Idealize.ShloMosaic Idealize.ShloMosaic.TcCoe Idealize.SL.Sem
open Idealize.ShloMosaic.Pipeline (Dat Cfg Window)

/-- The bias row's entry in the column of `i`. -/
abbrev biasAt {M N : Nat} (i : (⟨2, ![M, N]⟩ : Shape).Idx) : (⟨2, ![1, N]⟩ : Shape).Idx := fun a => match a with
  | ⟨0, _⟩ => ⟨0, Nat.one_pos⟩
  | ⟨1, _⟩ => ⟨(i 1).val, (i 1).isLt⟩

/-- Features times the first weights, plus messages times the second weights, plus the bias, clipped below at zero. -/
def hidden (fa : S102400x133.Idx → EReal) (w1 : S133x256.Idx → EReal) (am : S102400x256.Idx → EReal) (w2 : S256x256.Idx → EReal)
    (b : S1x256.Idx → EReal) : S102400x256.Idx → EReal :=
  fun i => max (((∑ k : Fin 133, fa (rowOf i k) * w1 (colOf i k)) + (∑ k : Fin 256, am (rowOf i k) * w2 (colOf i k))) + b (biasAt i))
    (Ideal.ofBits .f32 0x00000000#32)

theorem origin : (![0, 0] : Fin 2 → Nat) = fun _ => 0 := funext fun a => by fin_cases a <;> rfl

/-- The body's stored value at entry (p, q) of the block. -/
theorem stored (x0 : Vec Ideal S2048x133 .f32) (x1 : Vec Ideal S133x256 .bf16) (x2 : Vec Ideal S2048x256 .bf16)
    (x3 : Vec Ideal S256x256 .bf16) (x4 : Vec Ideal S1x256 .f32) (p : Fin 2048) (q : Fin 256) :
    k3_pay1 x0 x1 x2 x3 x4 (ValueIdx.ix2 p q)
      = max (((∑ k : Fin 133, x0 (rowOf (ValueIdx.ix2 p q) k) * x1 (colOf (ValueIdx.ix2 p q) k))
            + (∑ k : Fin 256, x2 (rowOf (ValueIdx.ix2 p q) k) * x3 (colOf (ValueIdx.ix2 p q) k)))
          + x4 (ValueIdx.ix2 (0 : Fin 1) q)) (Ideal.ofBits .f32 0x00000000#32) := by
  unfold k3_pay1
  exact congrArg₂ (fun a b => max (a + b) (Ideal.ofBits .f32 0x00000000#32))
    (congrArg₂ (· + ·)
      ((atoms_matmul _ _ (ValueIdx.ix2 p q)).trans (Finset.sum_congr rfl fun k _ =>
        congrArg (x0 (rowOf (ValueIdx.ix2 p q) k) * ·) (congrFun (shapeCast_self x1 _) (colOf (ValueIdx.ix2 p q) k))))
      ((messages_matmul _ _ (ValueIdx.ix2 p q)).trans (Finset.sum_congr rfl fun k _ =>
        congrArg₂ (· * ·) (congrFun (shapeCast_self x2 _) (rowOf (ValueIdx.ix2 p q) k)) (congrFun (shapeCast_self x3 _) (colOf (ValueIdx.ix2 p q) k)))))
    ((ValueIdx.broadcastTo_1b_ab_apply _ _ p q).trans (congrFun (shapeCast_self x4 _) (ValueIdx.ix2 (0 : Fin 1) q)))

/-- Where the printed index maps send a point: the two streamed windows and the output window to block row `t`,
    column block 0; the three whole windows to block (0, 0). -/
theorem maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The point's blocks, read where the body reads them, are the arrays read in the row an output block gives its
    entry (p, q) (row 2048·t + p) and in column q. -/
theorem block_entry (fa : S102400x133.Idx → EReal) (w1 : S133x256.Idx → EReal) (am : S102400x256.Idx → EReal) (w2 : S256x256.Idx → EReal)
    (b : S1x256.Idx → EReal) (t : Fin cfg3.N) (p : Fin 2048) (q : Fin 256)
    (i : S102400x256.Idx) (hi0 : (i 0).val = t.val * 2048 + p.val) (hi1 : (i 1).val = q.val) :
    max (((∑ k : Fin 133, fa (((cfg3.win 0).blk t).view.emb (rowOf (ValueIdx.ix2 p q) k)) * w1 (((cfg3.win 1).blk t).view.emb (colOf (ValueIdx.ix2 p q) k)))
          + (∑ k : Fin 256, am (((cfg3.win 2).blk t).view.emb (rowOf (ValueIdx.ix2 p q) k)) * w2 (((cfg3.win 3).blk t).view.emb (colOf (ValueIdx.ix2 p q) k))))
        + b (((cfg3.win 4).blk t).view.emb (ValueIdx.ix2 (0 : Fin 1) q))) (Ideal.ofBits .f32 0x00000000#32)
      = hidden fa w1 am w2 b i := by
  obtain ⟨e0, e1, e2, e3, e4, e5, e6, e7, e8, e9, e10, e11⟩ := maps t
  unfold hidden
  have hb : ((cfg3.win 4).blk t).view.emb (ValueIdx.ix2 (0 : Fin 1) q) = biasAt i := by
    funext a; apply Fin.ext
    match a with
    | ⟨0, _⟩ => show win3_4.index t (0 : Fin 2) * 1 + 1 * 0 = 0; omega
    | ⟨1, _⟩ => show win3_4.index t (1 : Fin 2) * 256 + 1 * q.val = (i 1).val; omega
  rw [hb]
  refine congrArg₂ (fun s s' => max ((s + s') + b (biasAt i)) (Ideal.ofBits .f32 0x00000000#32))
    (Finset.sum_congr rfl fun k _ => ?_) (Finset.sum_congr rfl fun k _ => ?_)
  · have h0 : ((cfg3.win 0).blk t).view.emb (rowOf (ValueIdx.ix2 p q) k) = rowOf i k := by
      funext a; apply Fin.ext
      match a with
      | ⟨0, _⟩ => show win3_0.index t (0 : Fin 2) * 2048 + 1 * p.val = (i 0).val; omega
      | ⟨1, _⟩ => show win3_0.index t (1 : Fin 2) * 133 + 1 * k.val = k.val; omega
    have h1 : ((cfg3.win 1).blk t).view.emb (colOf (ValueIdx.ix2 p q) k) = colOf i k := by
      funext a; apply Fin.ext
      match a with
      | ⟨0, _⟩ => show win3_1.index t (0 : Fin 2) * 133 + 1 * k.val = k.val; omega
      | ⟨1, _⟩ => show win3_1.index t (1 : Fin 2) * 256 + 1 * q.val = (i 1).val; omega
    rw [h0, h1]
  · have h2 : ((cfg3.win 2).blk t).view.emb (rowOf (ValueIdx.ix2 p q) k) = rowOf i k := by
      funext a; apply Fin.ext
      match a with
      | ⟨0, _⟩ => show win3_2.index t (0 : Fin 2) * 2048 + 1 * p.val = (i 0).val; omega
      | ⟨1, _⟩ => show win3_2.index t (1 : Fin 2) * 256 + 1 * k.val = k.val; omega
    have h3 : ((cfg3.win 3).blk t).view.emb (colOf (ValueIdx.ix2 p q) k) = colOf i k := by
      funext a; apply Fin.ext
      match a with
      | ⟨0, _⟩ => show win3_3.index t (0 : Fin 2) * 256 + 1 * k.val = k.val; omega
      | ⟨1, _⟩ => show win3_3.index t (1 : Fin 2) * 256 + 1 * q.val = (i 1).val; omega
    rw [h2, h3]

section
variable (V : (c : Dev nD) → (b : Ref sig .tc) → Buf (Elt Ideal) ((c : Thread nD τ).loc b))

/-- What point `t` writes back is block `t` of the whole-array function. -/
theorem flushed_hidden (c : Dev nD) (t : Fin cfg3.N) :
    (dat3 V c).flushed 5 t = ((cfg3.win 5).blk t).view.read (Elt Ideal)
      (hidden (V c main_arg0) (V c main_v4) (V c main_v72) (V c main_v6) (V c main_v7)) := by
  show (cfg3.win 5).cut (grid3.coords t) ((dat3 V c).after 5 t) = _
  rw [after3_5]
  unfold out3_5
  rw [View.canon_unit_zero origin]
  simp only [View.ld_unit_zero (S := S2048x133) origin, View.ld_unit_zero (S := S133x256) origin,
    View.ld_unit_zero (S := S2048x256) origin, View.ld_unit_zero (S := S256x256) origin, View.ld_unit_zero (S := S1x256) origin]
  obtain ⟨e0, e1, e2, e3, e4, e5, e6, e7, e8, e9, e10, e11⟩ := maps t
  refine funext fun (j : S2048x256.Idx) => ?_
  obtain ⟨p, q, rfl⟩ : ∃ (p : Fin 2048) (q : Fin 256), j = ValueIdx.ix2 p q := ⟨j 0, j 1, ValueIdx.eq_ix2 j⟩
  show k3_pay1 (iblk3 V c 0 t) (iblk3 V c 1 t) (iblk3 V c 2 t) (iblk3 V c 3 t) (iblk3 V c 4 t) (ValueIdx.ix2 p q)
      = hidden (V c main_arg0) (V c main_v4) (V c main_v72) (V c main_v6) (V c main_v7) (((cfg3.win 5).blk t).view.emb (ValueIdx.ix2 p q))
  refine (stored _ _ _ _ _ p q).trans ?_
  exact block_entry (V c main_arg0) (V c main_v4) (V c main_v72) (V c main_v6) (V c main_v7) t p q _
    (by show win3_5.index t (0 : Fin 2) * 2048 + 1 * p.val = _; omega)
    (by show win3_5.index t (1 : Fin 2) * 256 + 1 * q.val = _; omega)

end

/-- An entry lies in point `t`'s block of the output window iff each coordinate lies in the block's range. -/
theorem mem_block (t : Fin cfg3.N) (i : S102400x256.Idx) :
    i ∈ ((cfg3.win 5).blk t).view.set ↔ ∀ a : Fin 2, win3_5.index t a * S2048x256.size a ≤ (i a).val ∧ (i a).val < win3_5.index t a * S2048x256.size a + S2048x256.size a := by
  show i ∈ ((View.whole main_v73).slice (win3_5.rect t)).set ↔ _
  rw [View.set_slice_whole, Rect.mem_set_unit]
  exact Iff.rfl

/-- Row `r` is in the block of point `r / 2048`: the 50 blocks tile the rows. -/
theorem cover (i : S102400x256.Idx) : ∃ t : Fin cfg3.N, (cfg3.win 5).flush t = true ∧ i ∈ ((cfg3.win 5).blk t).view.set := by
  have hi0 : (i 0).val < 102400 := (i 0).isLt
  have hi1 : (i 1).val < 256 := (i 1).isLt
  have hN : cfg3.N = 50 := N_3
  let t : Fin cfg3.N := ⟨(i 0).val / 2048, by omega⟩
  have ht : t.val = (i 0).val / 2048 := rfl
  obtain ⟨e0, e1, e2, e3, e4, e5, e6, e7, e8, e9, e10, e11⟩ := maps t
  refine ⟨t, flush3_5 t, ?_⟩
  rw [mem_block]
  intro a
  match a with
  | ⟨0, _⟩ => show win3_5.index t (0 : Fin 2) * 2048 ≤ (i 0).val ∧ (i 0).val < win3_5.index t (0 : Fin 2) * 2048 + 2048; omega
  | ⟨1, _⟩ => show win3_5.index t (1 : Fin 2) * 256 ≤ (i 1).val ∧ (i 1).val < win3_5.index t (1 : Fin 2) * 256 + 256; omega

section
variable (V : (c : Dev nD) → (b : Ref sig .tc) → Buf (Elt Ideal) ((c : Thread nD τ).loc b))

/-- After the pipeline the output array is the whole-array function of the five arrays it was entered with. -/
theorem hidden_array (c : Dev nD) : (dat3 V c).arrAt 5 cfg3.N = hidden (V c main_arg0) (V c main_v4) (V c main_v72) (V c main_v6) (V c main_v7) :=
  (dat3 V c).arrAt_eq_of_cover 5 (hidden (V c main_arg0) (V c main_v4) (V c main_v72) (V c main_v6) (V c main_v7)) (fun t _ => flushed_hidden V c t) cover

end

end Cert.KernelIdeal.Readout

end
-- ==== Proof.Shared.lean ====
/-
  The host operations the two programs share, each chain as one function.

  Between the matrix products both programs do the same things to the bond messages: for every atom gather the
  messages of its six incoming bonds and add them up (`atomSum`); for every bond take the sum at its source atom minus
  the message of its reverse bond (`passing`); and after the readout add the atoms' hidden states up per molecule and
  divide by the molecule's atom count, at least one (`pooled`). An index word is first normalised (a negative word has
  the axis length added) exactly alike in both programs. Here each chain is named once, over the reference's own
  operations, and the reference's stages are these functions of its earlier stages.
-/
import proofs.«100643_j12232066859189_2_alg».proof.Proof.Gen.ReferenceIdeal.Read

set_option maxRecDepth 16384

noncomputable section

namespace Cert.Shared

open Cert.ReferenceIdeal Cert.ReferenceIdeal.Gen Cert.ReferenceIdeal.Read Idealize.ShloMosaic

/-- Per atom, the sum over its six incoming bonds of the bonds' message rows. -/
def atomSum (msg : (⟨S204800x256, .f32⟩ : BufTy).Contents (Elt Ideal)) (a2b : (⟨S102400x6, .i32⟩ : BufTy).Contents (Elt Ideal)) :
    (⟨S102400x256, .f32⟩ : BufTy).Contents (Elt Ideal) :=
  Host.reduceAdd (F := Ideal) (φ := .f32) (Host.gather gather_S204800x256_S102400x6x1_S102400x6x256_2_0_n_n_0_2_1256 msg (val_main_v7 (F := Ideal) a2b))
    (val_main_cst (F := Ideal)) reducesTo_S102400x6x256_S102400x256_d1 h_S_

/-- Per bond, the atom sum at its source atom minus the message of its reverse bond. -/
def passing (msg : (⟨S204800x256, .f32⟩ : BufTy).Contents (Elt Ideal)) (a2b : (⟨S102400x6, .i32⟩ : BufTy).Contents (Elt Ideal))
    (b2a b2revb : (⟨S204800, .i32⟩ : BufTy).Contents (Elt Ideal)) : (⟨S204800x256, .f32⟩ : BufTy).Contents (Elt Ideal) :=
  subf (F := Ideal) (φ := .f32) (Host.gather gather_S102400x256_S204800x1_S204800x256_1_0_n_n_0_1_1256 (atomSum msg a2b) (val_main_v15 (F := Ideal) b2a))
    (Host.gather gather_S204800x256_S204800x1_S204800x256_1_0_n_n_0_1_1256 msg (val_main_v22 (F := Ideal) b2revb))

/-- Per molecule, the sum of its atoms' hidden states over its atom count (at least one). -/
def pooled (ah : (⟨S102400x256, .f32⟩ : BufTy).Contents (Elt Ideal)) (mol : (⟨S102400, .i32⟩ : BufTy).Contents (Elt Ideal)) :
    (⟨S4096x256, .f32⟩ : BufTy).Contents (Elt Ideal) :=
  Host.divf (F := Ideal) (φ := .f32) (Host.scatterAdd (F := Ideal) (φ := .f32) scatter_S4096x256_S102400x1_S102400x256_1_0_0_1 (val_main_v68 (F := Ideal)) (val_main_v69 (F := Ideal) mol) ah)
    (val_main_v78 (F := Ideal) mol)

section
variable (x0 : (⟨S102400x133, .f32⟩ : BufTy).Contents (Elt Ideal)) (x1 : (⟨S204800x147, .f32⟩ : BufTy).Contents (Elt Ideal))
  (x2 : (⟨S147x256, .f32⟩ : BufTy).Contents (Elt Ideal)) (x3 x4 : (⟨S256x256, .f32⟩ : BufTy).Contents (Elt Ideal))
  (x5 : (⟨S389x256, .f32⟩ : BufTy).Contents (Elt Ideal)) (x6 : (⟨S256, .f32⟩ : BufTy).Contents (Elt Ideal))
  (x7 : (⟨S102400x6, .i32⟩ : BufTy).Contents (Elt Ideal)) (x8 x9 : (⟨S204800, .i32⟩ : BufTy).Contents (Elt Ideal))
  (x10 : (⟨S102400, .i32⟩ : BufTy).Contents (Elt Ideal))

/-- The reference's first exchange: `passing` of the clipped input product. -/
theorem first_exchange : val_main_v24 (F := Ideal) x1 x2 x7 x8 x9 = passing (val_main_v1 (F := Ideal) x1 x2) x7 x8 x9 := rfl

/-- Its second exchange: `passing` of the first update's messages. -/
theorem second_exchange : val_main_v50 (F := Ideal) x1 x2 x3 x7 x8 x9 = passing (val_main_v27 (F := Ideal) x1 x2 x3 x7 x8 x9) x7 x8 x9 := rfl

/-- Its final gathering: `atomSum` of the second update's messages. -/
theorem final_gathering : val_main_v61 (F := Ideal) x1 x2 x3 x4 x7 x8 x9 = atomSum (val_main_v53 (F := Ideal) x1 x2 x3 x4 x7 x8 x9) x7 := rfl

/-- Its result: `pooled` of the atom hidden states. -/
theorem result : val_main_v79 (F := Ideal) x0 x1 x2 x3 x4 x5 x6 x7 x8 x9 x10
    = pooled (val_main_v67 (F := Ideal) x0 x1 x2 x3 x4 x5 x6 x7 x8 x9) x10 := rfl

end

end Cert.Shared

end
-- ==== Proof.Stretches.lean ====
/-
  The idealized kernel's host stretches, each as a function of the buffer contents it starts from.

  A stretch of host operations run from contents `W` leaves in each buffer it writes the composition of its operations
  applied to `W`'s buffers. Before the first pipeline the stretch only changes float formats (the identity on the
  extended reals), takes the two row ranges of the output weights and adds a unit axis to the bias. Between the
  pipelines the stretches are the chains the two programs share, applied to a pipeline's output with float format
  changes in between; after the last pipeline, the pooling.
-/
import proofs.«100643_j12232066859189_2_alg».proof.Proof.Gen.KernelIdeal.Launch
import proofs.«100643_j12232066859189_2_alg».proof.Proof.Shared
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.ShloMosaic.StableHlo

variable (W : Valuation τ sig (Elt Ideal))

/-! ## Before the first pipeline -/

/-- The input weights in the narrower format: the same extended reals. -/
theorem input_weights : (after hostOps0 W (Proc.devRef .tc main_v0) : S147x256.Idx → EReal) = (W (Proc.devRef .tc main_arg2)) := by
  after_results <;> rfl
/-- The first update's weights. -/
theorem first_weights : (after hostOps0 W (Proc.devRef .tc main_v1) : S256x256.Idx → EReal) = (W (Proc.devRef .tc main_arg3)) := by
  after_results <;> rfl
/-- The second update's weights. -/
theorem second_weights : (after hostOps0 W (Proc.devRef .tc main_v2) : S256x256.Idx → EReal) = (W (Proc.devRef .tc main_arg4)) := by
  after_results <;> rfl
/-- Rows 0 … 132 of the output weights. -/
theorem atom_weights : (after hostOps0 W (Proc.devRef .tc main_v4) : S133x256.Idx → EReal)
    = extractStridedSlice S133x256 ![0, 0] ((W (Proc.devRef .tc main_arg5)) : S389x256.Idx → EReal) slices_S389x256_S133x256_0_0 := by
  after_results <;> rfl
/-- Rows 133 … 388 of the output weights. -/
theorem message_weights : (after hostOps0 W (Proc.devRef .tc main_v6) : S256x256.Idx → EReal)
    = extractStridedSlice S256x256 ![133, 0] ((W (Proc.devRef .tc main_arg5)) : S389x256.Idx → EReal) slices_S389x256_S256x256_133_0 := by
  after_results <;> rfl
/-- The bias as a one-row matrix. -/
theorem bias_row : (after hostOps0 W (Proc.devRef .tc main_v7) : S1x256.Idx → EReal)
    = shapeCast S1x256 ((W (Proc.devRef .tc main_arg6)) : S256.Idx → EReal) shapeCasts_S256_S1x256 := by
  after_results <;> rfl
/-- The bond features are not written. -/
theorem features_kept : after hostOps0 W (Proc.devRef .tc main_arg1) = (W (Proc.devRef .tc main_arg1)) := by
  after_results <;> rfl

/-! ## Between the pipelines, and after the last -/

/-- Before the first update: the exchange of the first pipeline's clipped product. -/
theorem exchange1 : (after hostOps1 W (Proc.devRef .tc main_v34) : S204800x256.Idx → EReal)
    = Cert.Shared.passing (W (Proc.devRef .tc main_v8_1)) (W (Proc.devRef .tc main_arg7)) (W (Proc.devRef .tc main_arg8)) (W (Proc.devRef .tc main_arg9)) := by
  after_results_simp
  rfl

/-- Before the second update: the exchange of the first update's messages. -/
theorem exchange2 : (after hostOps2 W (Proc.devRef .tc main_v61) : S204800x256.Idx → EReal)
    = Cert.Shared.passing (W (Proc.devRef .tc main_v35)) (W (Proc.devRef .tc main_arg7)) (W (Proc.devRef .tc main_arg8)) (W (Proc.devRef .tc main_arg9)) := by
  after_results_simp
  rfl

/-- Before the readout: the atoms' sums of the second update's messages. -/
theorem gathering : (after hostOps3 W (Proc.devRef .tc main_v72) : S102400x256.Idx → EReal)
    = Cert.Shared.atomSum (W (Proc.devRef .tc main_v62)) (W (Proc.devRef .tc main_arg7)) := by
  after_results_simp
  rfl

/-- After the readout: the pooling of the atom hidden states. -/
theorem pooling : (after hostOps4 W (Proc.devRef .tc main_v85) : S4096x256.Idx → EReal)
    = Cert.Shared.pooled (W (Proc.devRef .tc main_v73)) (W (Proc.devRef .tc main_arg10)) := by
  after_results_simp
  rfl

end Cert.KernelIdeal.Stretches

end
-- ==== Proof.Fold.lean ====
/-
  The idealized kernel's value, and the fold's buffers read back.

  The kernel's result as one function of the eleven argument arrays: the clipped input product; twice, the exchange
  of the messages followed by an update; the atoms' sums of the last messages; the readout against the two row ranges
  of the output weights and the bias row; the pooling. Then, boundary by boundary through @main's nine segments, what
  each buffer that a later pipeline or stretch reads holds: a buffer no operation of a stretch writes keeps its
  contents, a pipeline changes its output arrays only, and each pipeline's output array is the whole-array function of
  the arrays the pipeline was entered with.
-/
import proofs.«100643_j12232066859189_2_alg».proof.Proof.Gen.KernelIdeal.Frame
import proofs.«100643_j12232066859189_2_alg».proof.Proof.Bonds
import proofs.«100643_j12232066859189_2_alg».proof.Proof.Update1
import proofs.«100643_j12232066859189_2_alg».proof.Proof.Update2
import proofs.«100643_j12232066859189_2_alg».proof.Proof.Readout
import proofs.«100643_j12232066859189_2_alg».proof.Proof.Stretches

set_option maxRecDepth 16384

noncomputable section

namespace Cert.KernelIdeal.Whole

open Cert.KernelIdeal Cert.KernelIdeal.Gen Idealize.ShloMosaic

section
variable (x0 : S102400x133.Idx → EReal) (x1 : S204800x147.Idx → EReal) (x2 : S147x256.Idx → EReal) (x3 x4 : S256x256.Idx → EReal)
  (x5 : S389x256.Idx → EReal) (x6 : S256.Idx → EReal)
  (x7 : (⟨S102400x6, .i32⟩ : BufTy).Contents (Elt Ideal)) (x8 x9 : (⟨S204800, .i32⟩ : BufTy).Contents (Elt Ideal)) (x10 : (⟨S102400, .i32⟩ : BufTy).Contents (Elt Ideal))

/-- The bond pre-activations: features times input weights. -/
def inp : S204800x256.Idx → EReal := Bonds.prod x1 x2
/-- The first messages: the pre-activations clipped below at zero. -/
def msg0 : S204800x256.Idx → EReal := Bonds.clipped x1 x2
/-- The messages after the first update. -/
def msg1 : S204800x256.Idx → EReal := Update1.next (Cert.Shared.passing (msg0 x1 x2) x7 x8 x9) x3 (inp x1 x2)
/-- The messages after the second update. -/
def msg2 : S204800x256.Idx → EReal := Update2.next (Cert.Shared.passing (msg1 x1 x2 x3 x7 x8 x9) x7 x8 x9) x4 (inp x1 x2)
/-- Rows 0 … 132 of the output weights. -/
def atomWeights : S133x256.Idx → EReal := extractStridedSlice S133x256 ![0, 0] x5 slices_S389x256_S133x256_0_0
/-- Rows 133 … 388 of the output weights. -/
def messageWeights : S256x256.Idx → EReal := extractStridedSlice S256x256 ![133, 0] x5 slices_S389x256_S256x256_133_0
/-- The bias as a one-row matrix. -/
def biasRow : S1x256.Idx → EReal := shapeCast S1x256 x6 shapeCasts_S256_S1x256
/-- The atom hidden states. -/
def hiddenStates : S102400x256.Idx → EReal :=
  Readout.hidden x0 (atomWeights x5) (Cert.Shared.atomSum (msg2 x1 x2 x3 x4 x7 x8 x9) x7) (messageWeights x5) (biasRow x6)
/-- The molecule vectors. -/
def result : S4096x256.Idx → EReal := Cert.Shared.pooled (hiddenStates x0 x1 x2 x3 x4 x5 x6 x7 x8 x9) x10

end

end Cert.KernelIdeal.Whole

namespace Cert.KernelIdeal.Fold

open Cert.KernelIdeal Cert.KernelIdeal.Gen
open Idealize.ShloMosaic Idealize.ShloMosaic.TcCoe Idealize.SL.Sem
open Idealize.ShloMosaic.Pipeline (Dat Cfg Window)

/-- A buffer that none of a stretch's operations writes keeps its contents across the stretch. -/
macro "host_keeps" : tactic => `(tactic| (
  refine StableHlo.after_of_forall_not_mem _ _ (List.forall_iff_forall_mem.mp ?_)
  simp only [hostOps0, hostOps1, hostOps2, hostOps3, hostOps4, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-! ## At the first pipeline's entry -/

theorem at1_main_arg1 : W1 m ρ c (Proc.devRef .tc main_arg1) = (m ((c : Thread nD τ).loc main_arg1)) := Stretches.features_kept (W0 m ρ c)
theorem at1_main_v0 : (W1 m ρ c (Proc.devRef .tc main_v0) : S147x256.Idx → EReal) = (m ((c : Thread nD τ).loc main_arg2)) := Stretches.input_weights (W0 m ρ c)
theorem at1_main_v1 : (W1 m ρ c (Proc.devRef .tc main_v1) : S256x256.Idx → EReal) = (m ((c : Thread nD τ).loc main_arg3)) := Stretches.first_weights (W0 m ρ c)
theorem at1_main_v2 : (W1 m ρ c (Proc.devRef .tc main_v2) : S256x256.Idx → EReal) = (m ((c : Thread nD τ).loc main_arg4)) := Stretches.second_weights (W0 m ρ c)
theorem at1_main_v4 : (W1 m ρ c (Proc.devRef .tc main_v4) : S133x256.Idx → EReal) = Whole.atomWeights (m ((c : Thread nD τ).loc main_arg5)) := Stretches.atom_weights (W0 m ρ c)
theorem at1_main_v6 : (W1 m ρ c (Proc.devRef .tc main_v6) : S256x256.Idx → EReal) = Whole.messageWeights (m ((c : Thread nD τ).loc main_arg5)) := Stretches.message_weights (W0 m ρ c)
theorem at1_main_v7 : (W1 m ρ c (Proc.devRef .tc main_v7) : S1x256.Idx → EReal) = Whole.biasRow (m ((c : Thread nD τ).loc main_arg6)) := Stretches.bias_row (W0 m ρ c)
theorem at1_main_arg0 : W1 m ρ c (Proc.devRef .tc main_arg0) = (m ((c : Thread nD τ).loc main_arg0)) :=
  (by host_keeps : W1 m ρ c (Proc.devRef .tc main_arg0) = W0 m ρ c (Proc.devRef .tc main_arg0))
theorem at1_main_arg7 : W1 m ρ c (Proc.devRef .tc main_arg7) = (m ((c : Thread nD τ).loc main_arg7)) :=
  (by host_keeps : W1 m ρ c (Proc.devRef .tc main_arg7) = W0 m ρ c (Proc.devRef .tc main_arg7))
theorem at1_main_arg8 : W1 m ρ c (Proc.devRef .tc main_arg8) = (m ((c : Thread nD τ).loc main_arg8)) :=
  (by host_keeps : W1 m ρ c (Proc.devRef .tc main_arg8) = W0 m ρ c (Proc.devRef .tc main_arg8))
theorem at1_main_arg9 : W1 m ρ c (Proc.devRef .tc main_arg9) = (m ((c : Thread nD τ).loc main_arg9)) :=
  (by host_keeps : W1 m ρ c (Proc.devRef .tc main_arg9) = W0 m ρ c (Proc.devRef .tc main_arg9))
theorem at1_main_arg10 : W1 m ρ c (Proc.devRef .tc main_arg10) = (m ((c : Thread nD τ).loc main_arg10)) :=
  (by host_keeps : W1 m ρ c (Proc.devRef .tc main_arg10) = W0 m ρ c (Proc.devRef .tc main_arg10))

/-! ## After the first pipeline -/

theorem at2_main_v8_0 : (W2 m ρ c (Proc.devRef .tc main_v8_0) : S204800x256.Idx → EReal) = Whole.inp (m ((c : Thread nD τ).loc main_arg1)) (m ((c : Thread nD τ).loc main_arg2)) :=
  (W2_arr m ρ c 2).trans ((Bonds.product_array (V1 m ρ) c).trans (congrArg₂ Bonds.prod (at1_main_arg1 m ρ c) (at1_main_v0 m ρ c)))
theorem at2_main_v8_1 : (W2 m ρ c (Proc.devRef .tc main_v8_1) : S204800x256.Idx → EReal) = Whole.msg0 (m ((c : Thread nD τ).loc main_arg1)) (m ((c : Thread nD τ).loc main_arg2)) :=
  (W2_arr m ρ c 3).trans ((Bonds.clipped_array (V1 m ρ) c).trans (congrArg₂ Bonds.clipped (at1_main_arg1 m ρ c) (at1_main_v0 m ρ c)))
theorem at2_main_arg0 : W2 m ρ c (Proc.devRef .tc main_arg0) = (m ((c : Thread nD τ).loc main_arg0)) :=
  (W2_of_ne m ρ c main_arg0 (by decide)).trans (at1_main_arg0 m ρ c)
theorem at2_main_arg7 : W2 m ρ c (Proc.devRef .tc main_arg7) = (m ((c : Thread nD τ).loc main_arg7)) :=
  (W2_of_ne m ρ c main_arg7 (by decide)).trans (at1_main_arg7 m ρ c)
theorem at2_main_arg8 : W2 m ρ c (Proc.devRef .tc main_arg8) = (m ((c : Thread nD τ).loc main_arg8)) :=
  (W2_of_ne m ρ c main_arg8 (by decide)).trans (at1_main_arg8 m ρ c)
theorem at2_main_arg9 : W2 m ρ c (Proc.devRef .tc main_arg9) = (m ((c : Thread nD τ).loc main_arg9)) :=
  (W2_of_ne m ρ c main_arg9 (by decide)).trans (at1_main_arg9 m ρ c)
theorem at2_main_arg10 : W2 m ρ c (Proc.devRef .tc main_arg10) = (m ((c : Thread nD τ).loc main_arg10)) :=
  (W2_of_ne m ρ c main_arg10 (by decide)).trans (at1_main_arg10 m ρ c)
theorem at2_main_v1 : (W2 m ρ c (Proc.devRef .tc main_v1) : S256x256.Idx → EReal) = (m ((c : Thread nD τ).loc main_arg3)) :=
  (W2_of_ne m ρ c main_v1 (by decide)).trans (at1_main_v1 m ρ c)
theorem at2_main_v2 : (W2 m ρ c (Proc.devRef .tc main_v2) : S256x256.Idx → EReal) = (m ((c : Thread nD τ).loc main_arg4)) :=
  (W2_of_ne m ρ c main_v2 (by decide)).trans (at1_main_v2 m ρ c)
theorem at2_main_v4 : (W2 m ρ c (Proc.devRef .tc main_v4) : S133x256.Idx → EReal) = Whole.atomWeights (m ((c : Thread nD τ).loc main_arg5)) :=
  (W2_of_ne m ρ c main_v4 (by decide)).trans (at1_main_v4 m ρ c)
theorem at2_main_v6 : (W2 m ρ c (Proc.devRef .tc main_v6) : S256x256.Idx → EReal) = Whole.messageWeights (m ((c : Thread nD τ).loc main_arg5)) :=
  (W2_of_ne m ρ c main_v6 (by decide)).trans (at1_main_v6 m ρ c)
theorem at2_main_v7 : (W2 m ρ c (Proc.devRef .tc main_v7) : S1x256.Idx → EReal) = Whole.biasRow (m ((c : Thread nD τ).loc main_arg6)) :=
  (W2_of_ne m ρ c main_v7 (by decide)).trans (at1_main_v7 m ρ c)

/-! ## At the first update's entry -/

theorem at3_main_v34 : (W3 m ρ c (Proc.devRef .tc main_v34) : S204800x256.Idx → EReal) = Cert.Shared.passing (Whole.msg0 (m ((c : Thread nD τ).loc main_arg1)) (m ((c : Thread nD τ).loc main_arg2))) (m ((c : Thread nD τ).loc main_arg7)) (m ((c : Thread nD τ).loc main_arg8)) (m ((c : Thread nD τ).loc main_arg9)) :=
  (Stretches.exchange1 (W2 m ρ c)).trans (by rw [at2_main_v8_1 m ρ c, at2_main_arg7 m ρ c, at2_main_arg8 m ρ c, at2_main_arg9 m ρ c])
theorem at3_main_arg0 : W3 m ρ c (Proc.devRef .tc main_arg0) = (m ((c : Thread nD τ).loc main_arg0)) :=
  (by host_keeps : W3 m ρ c (Proc.devRef .tc main_arg0) = W2 m ρ c (Proc.devRef .tc main_arg0)).trans (at2_main_arg0 m ρ c)
theorem at3_main_arg7 : W3 m ρ c (Proc.devRef .tc main_arg7) = (m ((c : Thread nD τ).loc main_arg7)) :=
  (by host_keeps : W3 m ρ c (Proc.devRef .tc main_arg7) = W2 m ρ c (Proc.devRef .tc main_arg7)).trans (at2_main_arg7 m ρ c)
theorem at3_main_arg8 : W3 m ρ c (Proc.devRef .tc main_arg8) = (m ((c : Thread nD τ).loc main_arg8)) :=
  (by host_keeps : W3 m ρ c (Proc.devRef .tc main_arg8) = W2 m ρ c (Proc.devRef .tc main_arg8)).trans (at2_main_arg8 m ρ c)
theorem at3_main_arg9 : W3 m ρ c (Proc.devRef .tc main_arg9) = (m ((c : Thread nD τ).loc main_arg9)) :=
  (by host_keeps : W3 m ρ c (Proc.devRef .tc main_arg9) = W2 m ρ c (Proc.devRef .tc main_arg9)).trans (at2_main_arg9 m ρ c)
theorem at3_main_arg10 : W3 m ρ c (Proc.devRef .tc main_arg10) = (m ((c : Thread nD τ).loc main_arg10)) :=
  (by host_keeps : W3 m ρ c (Proc.devRef .tc main_arg10) = W2 m ρ c (Proc.devRef .tc main_arg10)).trans (at2_main_arg10 m ρ c)
theorem at3_main_v1 : (W3 m ρ c (Proc.devRef .tc main_v1) : S256x256.Idx → EReal) = (m ((c : Thread nD τ).loc main_arg3)) :=
  (by host_keeps : W3 m ρ c (Proc.devRef .tc main_v1) = W2 m ρ c (Proc.devRef .tc main_v1)).trans (at2_main_v1 m ρ c)
theorem at3_main_v2 : (W3 m ρ c (Proc.devRef .tc main_v2) : S256x256.Idx → EReal) = (m ((c : Thread nD τ).loc main_arg4)) :=
  (by host_keeps : W3 m ρ c (Proc.devRef .tc main_v2) = W2 m ρ c (Proc.devRef .tc main_v2)).trans (at2_main_v2 m ρ c)
theorem at3_main_v4 : (W3 m ρ c (Proc.devRef .tc main_v4) : S133x256.Idx → EReal) = Whole.atomWeights (m ((c : Thread nD τ).loc main_arg5)) :=
  (by host_keeps : W3 m ρ c (Proc.devRef .tc main_v4) = W2 m ρ c (Proc.devRef .tc main_v4)).trans (at2_main_v4 m ρ c)
theorem at3_main_v6 : (W3 m ρ c (Proc.devRef .tc main_v6) : S256x256.Idx → EReal) = Whole.messageWeights (m ((c : Thread nD τ).loc main_arg5)) :=
  (by host_keeps : W3 m ρ c (Proc.devRef .tc main_v6) = W2 m ρ c (Proc.devRef .tc main_v6)).trans (at2_main_v6 m ρ c)
theorem at3_main_v7 : (W3 m ρ c (Proc.devRef .tc main_v7) : S1x256.Idx → EReal) = Whole.biasRow (m ((c : Thread nD τ).loc main_arg6)) :=
  (by host_keeps : W3 m ρ c (Proc.devRef .tc main_v7) = W2 m ρ c (Proc.devRef .tc main_v7)).trans (at2_main_v7 m ρ c)
theorem at3_main_v8_0 : (W3 m ρ c (Proc.devRef .tc main_v8_0) : S204800x256.Idx → EReal) = Whole.inp (m ((c : Thread nD τ).loc main_arg1)) (m ((c : Thread nD τ).loc main_arg2)) :=
  (by host_keeps : W3 m ρ c (Proc.devRef .tc main_v8_0) = W2 m ρ c (Proc.devRef .tc main_v8_0)).trans (at2_main_v8_0 m ρ c)

/-! ## After the first update -/

theorem at4_main_v35 : (W4 m ρ c (Proc.devRef .tc main_v35) : S204800x256.Idx → EReal) = Whole.msg1 (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) :=
  (W4_arr m ρ c 3).trans ((Update1.next_array (V3 m ρ) c).trans (by
    show Update1.next (W3 m ρ c (Proc.devRef .tc main_v34)) (W3 m ρ c (Proc.devRef .tc main_v1)) (W3 m ρ c (Proc.devRef .tc main_v8_0)) = _
    rw [at3_main_v34 m ρ c, at3_main_v1 m ρ c, at3_main_v8_0 m ρ c]; rfl))
theorem at4_main_arg0 : W4 m ρ c (Proc.devRef .tc main_arg0) = (m ((c : Thread nD τ).loc main_arg0)) :=
  (W4_of_ne m ρ c main_arg0 (by decide)).trans (at3_main_arg0 m ρ c)
theorem at4_main_arg7 : W4 m ρ c (Proc.devRef .tc main_arg7) = (m ((c : Thread nD τ).loc main_arg7)) :=
  (W4_of_ne m ρ c main_arg7 (by decide)).trans (at3_main_arg7 m ρ c)
theorem at4_main_arg8 : W4 m ρ c (Proc.devRef .tc main_arg8) = (m ((c : Thread nD τ).loc main_arg8)) :=
  (W4_of_ne m ρ c main_arg8 (by decide)).trans (at3_main_arg8 m ρ c)
theorem at4_main_arg9 : W4 m ρ c (Proc.devRef .tc main_arg9) = (m ((c : Thread nD τ).loc main_arg9)) :=
  (W4_of_ne m ρ c main_arg9 (by decide)).trans (at3_main_arg9 m ρ c)
theorem at4_main_arg10 : W4 m ρ c (Proc.devRef .tc main_arg10) = (m ((c : Thread nD τ).loc main_arg10)) :=
  (W4_of_ne m ρ c main_arg10 (by decide)).trans (at3_main_arg10 m ρ c)
theorem at4_main_v2 : (W4 m ρ c (Proc.devRef .tc main_v2) : S256x256.Idx → EReal) = (m ((c : Thread nD τ).loc main_arg4)) :=
  (W4_of_ne m ρ c main_v2 (by decide)).trans (at3_main_v2 m ρ c)
theorem at4_main_v4 : (W4 m ρ c (Proc.devRef .tc main_v4) : S133x256.Idx → EReal) = Whole.atomWeights (m ((c : Thread nD τ).loc main_arg5)) :=
  (W4_of_ne m ρ c main_v4 (by decide)).trans (at3_main_v4 m ρ c)
theorem at4_main_v6 : (W4 m ρ c (Proc.devRef .tc main_v6) : S256x256.Idx → EReal) = Whole.messageWeights (m ((c : Thread nD τ).loc main_arg5)) :=
  (W4_of_ne m ρ c main_v6 (by decide)).trans (at3_main_v6 m ρ c)
theorem at4_main_v7 : (W4 m ρ c (Proc.devRef .tc main_v7) : S1x256.Idx → EReal) = Whole.biasRow (m ((c : Thread nD τ).loc main_arg6)) :=
  (W4_of_ne m ρ c main_v7 (by decide)).trans (at3_main_v7 m ρ c)
theorem at4_main_v8_0 : (W4 m ρ c (Proc.devRef .tc main_v8_0) : S204800x256.Idx → EReal) = Whole.inp (m ((c : Thread nD τ).loc main_arg1)) (m ((c : Thread nD τ).loc main_arg2)) :=
  ((W4_arr m ρ c 2).trans (((dat1 (V3 m ρ) c).arrAt_in 2 rfl _).trans (A_eq1 (V3 m ρ) c 2))).trans (at3_main_v8_0 m ρ c)

/-! ## At the second update's entry -/

theorem at5_main_v61 : (W5 m ρ c (Proc.devRef .tc main_v61) : S204800x256.Idx → EReal) = Cert.Shared.passing (Whole.msg1 (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9))) (m ((c : Thread nD τ).loc main_arg7)) (m ((c : Thread nD τ).loc main_arg8)) (m ((c : Thread nD τ).loc main_arg9)) :=
  (Stretches.exchange2 (W4 m ρ c)).trans (by rw [at4_main_v35 m ρ c, at4_main_arg7 m ρ c, at4_main_arg8 m ρ c, at4_main_arg9 m ρ c])
theorem at5_main_arg0 : W5 m ρ c (Proc.devRef .tc main_arg0) = (m ((c : Thread nD τ).loc main_arg0)) :=
  (by host_keeps : W5 m ρ c (Proc.devRef .tc main_arg0) = W4 m ρ c (Proc.devRef .tc main_arg0)).trans (at4_main_arg0 m ρ c)
theorem at5_main_arg7 : W5 m ρ c (Proc.devRef .tc main_arg7) = (m ((c : Thread nD τ).loc main_arg7)) :=
  (by host_keeps : W5 m ρ c (Proc.devRef .tc main_arg7) = W4 m ρ c (Proc.devRef .tc main_arg7)).trans (at4_main_arg7 m ρ c)
theorem at5_main_arg10 : W5 m ρ c (Proc.devRef .tc main_arg10) = (m ((c : Thread nD τ).loc main_arg10)) :=
  (by host_keeps : W5 m ρ c (Proc.devRef .tc main_arg10) = W4 m ρ c (Proc.devRef .tc main_arg10)).trans (at4_main_arg10 m ρ c)
theorem at5_main_v2 : (W5 m ρ c (Proc.devRef .tc main_v2) : S256x256.Idx → EReal) = (m ((c : Thread nD τ).loc main_arg4)) :=
  (by host_keeps : W5 m ρ c (Proc.devRef .tc main_v2) = W4 m ρ c (Proc.devRef .tc main_v2)).trans (at4_main_v2 m ρ c)
theorem at5_main_v4 : (W5 m ρ c (Proc.devRef .tc main_v4) : S133x256.Idx → EReal) = Whole.atomWeights (m ((c : Thread nD τ).loc main_arg5)) :=
  (by host_keeps : W5 m ρ c (Proc.devRef .tc main_v4) = W4 m ρ c (Proc.devRef .tc main_v4)).trans (at4_main_v4 m ρ c)
theorem at5_main_v6 : (W5 m ρ c (Proc.devRef .tc main_v6) : S256x256.Idx → EReal) = Whole.messageWeights (m ((c : Thread nD τ).loc main_arg5)) :=
  (by host_keeps : W5 m ρ c (Proc.devRef .tc main_v6) = W4 m ρ c (Proc.devRef .tc main_v6)).trans (at4_main_v6 m ρ c)
theorem at5_main_v7 : (W5 m ρ c (Proc.devRef .tc main_v7) : S1x256.Idx → EReal) = Whole.biasRow (m ((c : Thread nD τ).loc main_arg6)) :=
  (by host_keeps : W5 m ρ c (Proc.devRef .tc main_v7) = W4 m ρ c (Proc.devRef .tc main_v7)).trans (at4_main_v7 m ρ c)
theorem at5_main_v8_0 : (W5 m ρ c (Proc.devRef .tc main_v8_0) : S204800x256.Idx → EReal) = Whole.inp (m ((c : Thread nD τ).loc main_arg1)) (m ((c : Thread nD τ).loc main_arg2)) :=
  (by host_keeps : W5 m ρ c (Proc.devRef .tc main_v8_0) = W4 m ρ c (Proc.devRef .tc main_v8_0)).trans (at4_main_v8_0 m ρ c)

/-! ## After the second update -/

theorem at6_main_v62 : (W6 m ρ c (Proc.devRef .tc main_v62) : S204800x256.Idx → EReal) = Whole.msg2 (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) :=
  (W6_arr m ρ c 3).trans ((Update2.next_array (V5 m ρ) c).trans (by
    show Update2.next (W5 m ρ c (Proc.devRef .tc main_v61)) (W5 m ρ c (Proc.devRef .tc main_v2)) (W5 m ρ c (Proc.devRef .tc main_v8_0)) = _
    rw [at5_main_v61 m ρ c, at5_main_v2 m ρ c, at5_main_v8_0 m ρ c]; rfl))
theorem at6_main_arg0 : W6 m ρ c (Proc.devRef .tc main_arg0) = (m ((c : Thread nD τ).loc main_arg0)) :=
  (W6_of_ne m ρ c main_arg0 (by decide)).trans (at5_main_arg0 m ρ c)
theorem at6_main_arg7 : W6 m ρ c (Proc.devRef .tc main_arg7) = (m ((c : Thread nD τ).loc main_arg7)) :=
  (W6_of_ne m ρ c main_arg7 (by decide)).trans (at5_main_arg7 m ρ c)
theorem at6_main_arg10 : W6 m ρ c (Proc.devRef .tc main_arg10) = (m ((c : Thread nD τ).loc main_arg10)) :=
  (W6_of_ne m ρ c main_arg10 (by decide)).trans (at5_main_arg10 m ρ c)
theorem at6_main_v4 : (W6 m ρ c (Proc.devRef .tc main_v4) : S133x256.Idx → EReal) = Whole.atomWeights (m ((c : Thread nD τ).loc main_arg5)) :=
  (W6_of_ne m ρ c main_v4 (by decide)).trans (at5_main_v4 m ρ c)
theorem at6_main_v6 : (W6 m ρ c (Proc.devRef .tc main_v6) : S256x256.Idx → EReal) = Whole.messageWeights (m ((c : Thread nD τ).loc main_arg5)) :=
  (W6_of_ne m ρ c main_v6 (by decide)).trans (at5_main_v6 m ρ c)
theorem at6_main_v7 : (W6 m ρ c (Proc.devRef .tc main_v7) : S1x256.Idx → EReal) = Whole.biasRow (m ((c : Thread nD τ).loc main_arg6)) :=
  (W6_of_ne m ρ c main_v7 (by decide)).trans (at5_main_v7 m ρ c)

/-! ## At the readout's entry -/

theorem at7_main_v72 : (W7 m ρ c (Proc.devRef .tc main_v72) : S102400x256.Idx → EReal) = Cert.Shared.atomSum (Whole.msg2 (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9))) (m ((c : Thread nD τ).loc main_arg7)) :=
  (Stretches.gathering (W6 m ρ c)).trans (by rw [at6_main_v62 m ρ c, at6_main_arg7 m ρ c])
theorem at7_main_arg0 : W7 m ρ c (Proc.devRef .tc main_arg0) = (m ((c : Thread nD τ).loc main_arg0)) :=
  (by host_keeps : W7 m ρ c (Proc.devRef .tc main_arg0) = W6 m ρ c (Proc.devRef .tc main_arg0)).trans (at6_main_arg0 m ρ c)
theorem at7_main_arg10 : W7 m ρ c (Proc.devRef .tc main_arg10) = (m ((c : Thread nD τ).loc main_arg10)) :=
  (by host_keeps : W7 m ρ c (Proc.devRef .tc main_arg10) = W6 m ρ c (Proc.devRef .tc main_arg10)).trans (at6_main_arg10 m ρ c)
theorem at7_main_v4 : (W7 m ρ c (Proc.devRef .tc main_v4) : S133x256.Idx → EReal) = Whole.atomWeights (m ((c : Thread nD τ).loc main_arg5)) :=
  (by host_keeps : W7 m ρ c (Proc.devRef .tc main_v4) = W6 m ρ c (Proc.devRef .tc main_v4)).trans (at6_main_v4 m ρ c)
theorem at7_main_v6 : (W7 m ρ c (Proc.devRef .tc main_v6) : S256x256.Idx → EReal) = Whole.messageWeights (m ((c : Thread nD τ).loc main_arg5)) :=
  (by host_keeps : W7 m ρ c (Proc.devRef .tc main_v6) = W6 m ρ c (Proc.devRef .tc main_v6)).trans (at6_main_v6 m ρ c)
theorem at7_main_v7 : (W7 m ρ c (Proc.devRef .tc main_v7) : S1x256.Idx → EReal) = Whole.biasRow (m ((c : Thread nD τ).loc main_arg6)) :=
  (by host_keeps : W7 m ρ c (Proc.devRef .tc main_v7) = W6 m ρ c (Proc.devRef .tc main_v7)).trans (at6_main_v7 m ρ c)

/-! ## After the readout -/

theorem at8_main_v73 : (W8 m ρ c (Proc.devRef .tc main_v73) : S102400x256.Idx → EReal) = Whole.hiddenStates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W8_arr m ρ c 5).trans ((Readout.hidden_array (V7 m ρ) c).trans (by
    show Readout.hidden (W7 m ρ c (Proc.devRef .tc main_arg0)) (W7 m ρ c (Proc.devRef .tc main_v4)) (W7 m ρ c (Proc.devRef .tc main_v72))
      (W7 m ρ c (Proc.devRef .tc main_v6)) (W7 m ρ c (Proc.devRef .tc main_v7)) = _
    rw [at7_main_arg0 m ρ c, at7_main_v4 m ρ c, at7_main_v72 m ρ c, at7_main_v6 m ρ c, at7_main_v7 m ρ c]; rfl))
theorem at8_main_arg10 : W8 m ρ c (Proc.devRef .tc main_arg10) = (m ((c : Thread nD τ).loc main_arg10)) :=
  (W8_of_ne m ρ c main_arg10 (by decide)).trans (at7_main_arg10 m ρ c)

/-! ## At the return -/

/-- The result buffer ends holding the kernel's value of the launch contents of the eleven arguments. -/
theorem result_value : (W9 m ρ c (Proc.devRef .tc main_v85) : S4096x256.Idx → EReal) = Whole.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (Stretches.pooling (W8 m ρ c)).trans (by rw [at8_main_v73 m ρ c, at8_main_arg10 m ρ c]; rfl)

end Cert.KernelIdeal.Fold

end
-- ==== Proof.Stages.lean ====
/-
  The kernel's value is the reference's, stage by stage.

  Both programs compute: the bond pre-activations (features times input weights); the first messages (the
  pre-activations clipped below at zero); twice, an exchange of messages followed by messages times weights plus the
  pre-activations, clipped; the atoms' sums; the readout; the pooling. The exchanges, the sums and the pooling are the
  same operations in both programs, so only the four places with a matrix product are compared entry by entry:
  the kernel adds the pre-activations to the product where the reference adds the product to the pre-activations
  (addition commutes), and at the readout the kernel multiplies the atom features by rows 0 … 132 of the output
  weights and the atoms' sums by rows 133 … 388 and adds the two products, where the reference multiplies the
  features and sums laid side by side by the whole weights: a sum over 389 terms is the sum over the first 133 plus
  the sum over the last 256. No law used needs the summands finite.
-/
import proofs.«100643_j12232066859189_2_alg».proof.Proof.Fold
import Idealize.ShloMosaic.Lib.ValueLayout

set_option maxRecDepth 16384

noncomputable section

namespace Cert.Stages

open Cert.ReferenceIdeal Cert.ReferenceIdeal.Gen Cert.ReferenceIdeal.Read Idealize.ShloMosaic
open Cert.KernelIdeal.Products

/-! ## The index functions of the two sides agree -/

theorem row_v0 (i : S204800x256.Idx) (k : Fin 147) : rowOf i k = lidx_main_v0 i k :=
  funext fun a => Fin.ext (by match a with | ⟨0, _⟩ => rfl | ⟨1, _⟩ => rfl)
theorem col_v0 (i : S204800x256.Idx) (k : Fin 147) : colOf i k = ridx_main_v0 i k :=
  funext fun a => Fin.ext (by match a with | ⟨0, _⟩ => rfl | ⟨1, _⟩ => rfl)
theorem row_v25 (i : S204800x256.Idx) (k : Fin 256) : rowOf i k = lidx_main_v25 i k :=
  funext fun a => Fin.ext (by match a with | ⟨0, _⟩ => rfl | ⟨1, _⟩ => rfl)
theorem col_v25 (i : S204800x256.Idx) (k : Fin 256) : colOf i k = ridx_main_v25 i k :=
  funext fun a => Fin.ext (by match a with | ⟨0, _⟩ => rfl | ⟨1, _⟩ => rfl)
theorem row_v51 (i : S204800x256.Idx) (k : Fin 256) : rowOf i k = lidx_main_v51 i k :=
  funext fun a => Fin.ext (by match a with | ⟨0, _⟩ => rfl | ⟨1, _⟩ => rfl)
theorem col_v51 (i : S204800x256.Idx) (k : Fin 256) : colOf i k = ridx_main_v51 i k :=
  funext fun a => Fin.ext (by match a with | ⟨0, _⟩ => rfl | ⟨1, _⟩ => rfl)

section
variable (x0 : (⟨S102400x133, .f32⟩ : BufTy).Contents (Elt Ideal)) (x1 : (⟨S204800x147, .f32⟩ : BufTy).Contents (Elt Ideal))
  (x2 : (⟨S147x256, .f32⟩ : BufTy).Contents (Elt Ideal)) (x3 x4 : (⟨S256x256, .f32⟩ : BufTy).Contents (Elt Ideal))
  (x5 : (⟨S389x256, .f32⟩ : BufTy).Contents (Elt Ideal)) (x6 : (⟨S256, .f32⟩ : BufTy).Contents (Elt Ideal))
  (x7 : (⟨S102400x6, .i32⟩ : BufTy).Contents (Elt Ideal)) (x8 x9 : (⟨S204800, .i32⟩ : BufTy).Contents (Elt Ideal))
  (x10 : (⟨S102400, .i32⟩ : BufTy).Contents (Elt Ideal))

/-- The pre-activations. -/
theorem pre_activations : Cert.KernelIdeal.Whole.inp x1 x2 = val_main_v0 (F := Ideal) x1 x2 := by
  funext i
  rw [val_main_v0_apply]
  unfold Cert.KernelIdeal.Whole.inp Cert.KernelIdeal.Bonds.prod
  exact Finset.sum_congr rfl fun k _ => by rw [row_v0 i k, col_v0 i k]

/-- The first messages. -/
theorem first_messages : Cert.KernelIdeal.Whole.msg0 x1 x2 = val_main_v1 (F := Ideal) x1 x2 := by
  funext i
  have h := congrFun (pre_activations x1 x2) i
  rw [val_main_v1_apply, val_main_call0_v0_apply, val_main_call0_cst_apply, ← h]
  rfl

/-- The messages after the first update. -/
theorem second_messages : Cert.KernelIdeal.Whole.msg1 x1 x2 x3 x7 x8 x9 = val_main_v27 (F := Ideal) x1 x2 x3 x7 x8 x9 := by
  funext i
  unfold Cert.KernelIdeal.Whole.msg1
  rw [first_messages, pre_activations, ← Cert.Shared.first_exchange]
  rw [val_main_v27_apply, val_main_v26_apply, val_main_v25_apply, val_main_call1_v0_apply, val_main_call1_cst_apply]
  unfold Cert.KernelIdeal.Update1.next
  rw [show (∑ k : Fin 256, val_main_v24 (F := Ideal) x1 x2 x7 x8 x9 (rowOf i k) * x3 (colOf i k))
      = ∑ k : Fin 256, val_main_v24 (F := Ideal) x1 x2 x7 x8 x9 (lidx_main_v25 i k) * x3 (ridx_main_v25 i k)
    from Finset.sum_congr rfl fun k _ => by rw [row_v25 i k, col_v25 i k]]
  exact congrArg (fun s => max s (Ideal.ofBits .f32 0x00000000#32)) (add_comm _ _)

/-- The messages after the second update. -/
theorem third_messages : Cert.KernelIdeal.Whole.msg2 x1 x2 x3 x4 x7 x8 x9 = val_main_v53 (F := Ideal) x1 x2 x3 x4 x7 x8 x9 := by
  funext i
  unfold Cert.KernelIdeal.Whole.msg2
  rw [second_messages, pre_activations, ← Cert.Shared.second_exchange]
  rw [val_main_v53_apply, val_main_v52_apply, val_main_v51_apply, val_main_call2_v0_apply, val_main_call2_cst_apply]
  unfold Cert.KernelIdeal.Update2.next
  rw [show (∑ k : Fin 256, val_main_v50 (F := Ideal) x1 x2 x3 x7 x8 x9 (rowOf i k) * x4 (colOf i k))
      = ∑ k : Fin 256, val_main_v50 (F := Ideal) x1 x2 x3 x7 x8 x9 (lidx_main_v51 i k) * x4 (ridx_main_v51 i k)
    from Finset.sum_congr rfl fun k _ => by rw [row_v51 i k, col_v51 i k]]
  exact congrArg (fun s => max s (Ideal.ofBits .f32 0x00000000#32)) (add_comm _ _)

end

/-! ## The readout -/

section
variable (x0 : (⟨S102400x133, .f32⟩ : BufTy).Contents (Elt Ideal)) (x5 : (⟨S389x256, .f32⟩ : BufTy).Contents (Elt Ideal))
  (x6 : (⟨S256, .f32⟩ : BufTy).Contents (Elt Ideal)) (am : (⟨S102400x256, .f32⟩ : BufTy).Contents (Elt Ideal))

/-- Rows 0 … 132 of the weights at (k, column of i) are the whole weights at the same place. -/
theorem upper_weights (i : S102400x256.Idx) (k : Fin 133) :
    Cert.KernelIdeal.Whole.atomWeights x5 (colOf i k) = x5 (ridx_main_v63 i (Fin.castAdd 256 k)) := by
  unfold Cert.KernelIdeal.Whole.atomWeights
  have hc : (colOf i k : Cert.KernelIdeal.S133x256.Idx) = ValueIdx.ix2 k (⟨(i 1).val, (i 1).isLt⟩ : Fin 256) :=
    funext fun a => Fin.ext (by match a with | ⟨0, _⟩ => rfl | ⟨1, _⟩ => rfl)
  rw [hc]
  refine (ValueIdx.slice2_axis0_apply 0 x5 _ k _ ⟨k.val, by have := k.isLt; omega⟩ (by simp)).trans ?_
  exact congrArg x5 (funext fun a => Fin.ext (by match a with | ⟨0, _⟩ => rfl | ⟨1, _⟩ => rfl))

/-- Rows 133 … 388 of the weights at (k, column of i) are the whole weights at (133 + k, column of i). -/
theorem lower_weights (i : S102400x256.Idx) (k : Fin 256) :
    Cert.KernelIdeal.Whole.messageWeights x5 (colOf i k) = x5 (ridx_main_v63 i (Fin.natAdd 133 k)) := by
  unfold Cert.KernelIdeal.Whole.messageWeights
  have hc : (colOf i k : S256x256.Idx) = ValueIdx.ix2 k (⟨(i 1).val, (i 1).isLt⟩ : Fin 256) :=
    funext fun a => Fin.ext (by match a with | ⟨0, _⟩ => rfl | ⟨1, _⟩ => rfl)
  rw [hc]
  refine (ValueIdx.slice2_axis0_apply 133 x5 _ k _ ⟨133 + k.val, by have := k.isLt; omega⟩ rfl).trans ?_
  exact congrArg x5 (funext fun a => Fin.ext (by match a with | ⟨0, _⟩ => rfl | ⟨1, _⟩ => rfl))

/-- The bias row at the column of i is the bias at that column. -/
theorem bias_at (i : S102400x256.Idx) :
    Cert.KernelIdeal.Whole.biasRow x6 (Cert.KernelIdeal.Readout.biasAt i) = x6 (idx_main_v64 (idx_main_v65 i)) := by
  unfold Cert.KernelIdeal.Whole.biasRow
  have hb : (Cert.KernelIdeal.Readout.biasAt i : S1x256.Idx) = ValueIdx.ix2 (0 : Fin 1) (⟨(i 1).val, (i 1).isLt⟩ : Fin 256) :=
    funext fun a => Fin.ext (by match a with | ⟨0, _⟩ => rfl | ⟨1, _⟩ => rfl)
  rw [hb]
  refine (ValueIdx.shapeCast_a_1a_apply x6 _ 0 _).trans ?_
  exact congrArg x6 (funext fun a => Fin.ext (by match a with | ⟨0, _⟩ => rfl))

/-- Features and sums laid side by side, read in the first 133 columns: the features. -/
theorem side_left (i : S102400x256.Idx) (k : Fin 133) :
    concatenate S102400x389 1 [⟨S102400x133, x0⟩, ⟨S102400x256, am⟩] concatenates_S102400x133_S102400x256_S102400x389_d1
      (lidx_main_v63 i (Fin.castAdd 256 k)) = x0 (rowOf i k) :=
  concatenate_pair_apply_left (1 : Fin 2) x0 am concatenates_S102400x133_S102400x256_S102400x389_d1
    (lidx_main_v63 i (Fin.castAdd 256 k)) rfl (rowOf i k) (fun b => by match b with | ⟨0, _⟩ => rfl | ⟨1, _⟩ => rfl)

/-- Read in the last 256 columns: the sums. -/
theorem side_right (i : S102400x256.Idx) (k : Fin 256) :
    concatenate S102400x389 1 [⟨S102400x133, x0⟩, ⟨S102400x256, am⟩] concatenates_S102400x133_S102400x256_S102400x389_d1
      (lidx_main_v63 i (Fin.natAdd 133 k)) = am (rowOf i k) :=
  concatenate_pair_apply_right (1 : Fin 2) x0 am concatenates_S102400x133_S102400x256_S102400x389_d1
    (lidx_main_v63 i (Fin.natAdd 133 k)) rfl rfl (rowOf i k)
    (fun b hb => by match b with | ⟨0, _⟩ => rfl | ⟨1, _⟩ => exact absurd rfl hb)
    (by show k.val + 133 = 133 + k.val; omega)

/-- The product against the whole weights splits at column 133. -/
theorem split_sum (i : S102400x256.Idx) :
    (∑ k : Fin 389, concatenate S102400x389 1 [⟨S102400x133, x0⟩, ⟨S102400x256, am⟩] concatenates_S102400x133_S102400x256_S102400x389_d1
        (lidx_main_v63 i k) * x5 (ridx_main_v63 i k))
      = (∑ k : Fin 133, x0 (rowOf i k) * Cert.KernelIdeal.Whole.atomWeights x5 (colOf i k))
        + ∑ k : Fin 256, am (rowOf i k) * Cert.KernelIdeal.Whole.messageWeights x5 (colOf i k) := by
  rw [show (∑ k : Fin 389, concatenate S102400x389 1 [⟨S102400x133, x0⟩, ⟨S102400x256, am⟩] concatenates_S102400x133_S102400x256_S102400x389_d1
        (lidx_main_v63 i k) * x5 (ridx_main_v63 i k))
      = ∑ k : Fin (133 + 256), concatenate S102400x389 1 [⟨S102400x133, x0⟩, ⟨S102400x256, am⟩] concatenates_S102400x133_S102400x256_S102400x389_d1
        (lidx_main_v63 i k) * x5 (ridx_main_v63 i k) from rfl, Fin.sum_univ_add]
  refine congrArg₂ (· + ·) (Finset.sum_congr rfl fun k _ => ?_) (Finset.sum_congr rfl fun k _ => ?_)
  · rw [side_left, upper_weights]
  · rw [side_right, lower_weights]

end

section
variable (x0 : (⟨S102400x133, .f32⟩ : BufTy).Contents (Elt Ideal)) (x1 : (⟨S204800x147, .f32⟩ : BufTy).Contents (Elt Ideal))
  (x2 : (⟨S147x256, .f32⟩ : BufTy).Contents (Elt Ideal)) (x3 x4 : (⟨S256x256, .f32⟩ : BufTy).Contents (Elt Ideal))
  (x5 : (⟨S389x256, .f32⟩ : BufTy).Contents (Elt Ideal)) (x6 : (⟨S256, .f32⟩ : BufTy).Contents (Elt Ideal))
  (x7 : (⟨S102400x6, .i32⟩ : BufTy).Contents (Elt Ideal)) (x8 x9 : (⟨S204800, .i32⟩ : BufTy).Contents (Elt Ideal))
  (x10 : (⟨S102400, .i32⟩ : BufTy).Contents (Elt Ideal))

/-- The atom hidden states. -/
theorem hidden_states : Cert.KernelIdeal.Whole.hiddenStates x0 x1 x2 x3 x4 x5 x6 x7 x8 x9 = val_main_v67 (F := Ideal) x0 x1 x2 x3 x4 x5 x6 x7 x8 x9 := by
  funext i
  unfold Cert.KernelIdeal.Whole.hiddenStates
  rw [third_messages, ← Cert.Shared.final_gathering]
  rw [val_main_v67_apply, val_main_v66_apply, val_main_v63_apply, val_main_v65_apply, val_main_v64_apply, val_main_call3_v0_apply, val_main_call3_cst_apply]
  unfold Cert.KernelIdeal.Readout.hidden val_main_v62
  rw [split_sum x0 x5 (val_main_v61 (F := Ideal) x1 x2 x3 x4 x7 x8 x9) i, bias_at x6 i]
  rfl

/-- The kernel's value is the reference's last stage. -/
theorem value : Cert.KernelIdeal.Whole.result x0 x1 x2 x3 x4 x5 x6 x7 x8 x9 x10 = val_main_v79 (F := Ideal) x0 x1 x2 x3 x4 x5 x6 x7 x8 x9 x10 := by
  unfold Cert.KernelIdeal.Whole.result
  rw [hidden_states]
  exact (Cert.Shared.result x0 x1 x2 x3 x4 x5 x6 x7 x8 x9 x10).symm

end

end Cert.Stages

end
-- ==== Proof.lean ====
/-
  A directed message-passing encoder on molecular graphs, in two programs.

  Both take atom features, bond features, five weight matrices, a bias and four integer index arrays (for each atom
  its six incoming bonds, for each bond its source atom and its reverse bond, for each atom its molecule), and return
  one vector per molecule. The kernel runs four grid pipelines (the input product, two message updates, the atom
  readout) among stretches of host operations; the reference is host operations only. On the extended reals they
  agree: the pipelines' matrix products are the reference's, block by block (Proof/Bonds, Update1, Update2, Readout);
  the host operations between them are the same in both programs (Proof/Shared, Stretches); the kernel's result is the
  fold of its nine segments (Proof/ResultRun, Fold); and the two composed values are equal stage by stage, by
  commutativity of addition and by splitting one sum of 389 terms in two (Proof/Stages). No step uses that the inputs
  are finite. The kernel's idealization rewrote nothing, so that it preserves the kernel is immediate.
-/
import proofs.«100643_j12232066859189_2_alg».proof.Defs
import proofs.«100643_j12232066859189_2_alg».proof.Proof.Gen.Kernel
import proofs.«100643_j12232066859189_2_alg».proof.Proof.Gen.Kernel.Skeleton
import proofs.«100643_j12232066859189_2_alg».proof.Proof.Gen.Kernel.Launch
import proofs.«100643_j12232066859189_2_alg».proof.Proof.Gen.Kernel.Points
import proofs.«100643_j12232066859189_2_alg».proof.Proof.Gen.Kernel.Frame
import proofs.«100643_j12232066859189_2_alg».proof.Proof.Gen.KernelIdeal
import proofs.«100643_j12232066859189_2_alg».proof.Proof.Gen.KernelIdeal.Skeleton
import proofs.«100643_j12232066859189_2_alg».proof.Proof.Gen.KernelIdeal.Launch
import proofs.«100643_j12232066859189_2_alg».proof.Proof.Gen.KernelIdeal.Points
import proofs.«100643_j12232066859189_2_alg».proof.Proof.Gen.KernelIdeal.Frame
import proofs.«100643_j12232066859189_2_alg».proof.Proof.Gen.ReferenceIdeal
import proofs.«100643_j12232066859189_2_alg».proof.Proof.Gen.ReferenceIdeal.Run
import proofs.«100643_j12232066859189_2_alg».proof.Proof.Gen.ReferenceIdeal.Read
import proofs.«100643_j12232066859189_2_alg».proof.Proof.Gen.Pre_finite_inputs
import proofs.«100643_j12232066859189_2_alg».proof.Proof.ResultRun
import proofs.«100643_j12232066859189_2_alg».proof.Proof.Fold
import proofs.«100643_j12232066859189_2_alg».proof.Proof.Stages
import Idealize.ShloMosaic.Adequacy
import Idealize.ShloMosaic.Init

set_option maxRecDepth 16384

noncomputable section

namespace Cert.Proof

open Idealize.ShloMosaic Idealize.ShloMosaic.TcCoe Idealize.SL.Sem

/-- The word-level kernel terminates, faults nowhere and leaves its arguments as they were. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the eleven arguments both programs end with the same molecule vectors: the
    reference's last stage of the arguments. -/
theorem algebraic : Cert.algebraic_KernelIdeal_ReferenceIdeal := by
  intro m ρ m' ρ' _ hagree
  refine ⟨fun c => Cert.ReferenceIdeal.Read.val_main_v79 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ⟨(h c).1.trans ?_, (h c).2⟩) (Cert.KernelIdeal.Outcome.run (F := Ideal) m ρ)
    exact (Cert.KernelIdeal.Fold.result_value m ρ c).trans (Cert.Stages.value _ _ _ _ _ _ _ _ _ _ _)
  · refine (θ_run Cert.ReferenceIdeal.defs _ _).mono (fun r h c => ⟨(h c).1.trans ?_, (h c).2⟩) (Cert.ReferenceIdeal.Value.run (F := Ideal) m' ρ')
    rw [Cert.ReferenceIdeal.Read.val_main_v79_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
